-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S2x4096x32 : Shape := ⟨3, ![2, 4096, 32]⟩
abbrev S1x1x32 : Shape := ⟨3, ![1, 1, 32]⟩
abbrev S32x96 : Shape := ⟨2, ![32, 96]⟩
abbrev S96 : Shape := ⟨1, ![96]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S2x4096x32 : S_.BroadcastsInDim S2x4096x32 (![] : Fin 0 → Fin S2x4096x32.rank)
  reducesTo_S2x4096x32_S_d0_1_2 : S2x4096x32.ReducesTo [0, 1, 2] S_
  bcast_S_S1x1x32 : S_.BroadcastsInDim S1x1x32 (![] : Fin 0 → Fin S1x1x32.rank)
  reducesTo_S1x1x32_S_d0_1_2 : S1x1x32.ReducesTo [0, 1, 2] S_
  bcast_S_S32x96 : S_.BroadcastsInDim S32x96 (![] : Fin 0 → Fin S32x96.rank)
  reducesTo_S32x96_S_d0_1 : S32x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S32x96 .f32) (main_arg5 : FVec F S96 .f32) (main_arg6 : FVec F S96 .f32) (main_v13 : IVec S_ 1) (main_v16 : IVec S32x96 1) : IVec S_ 1 :=
  let main_c_5 : IVec S_ 1 := constantI S_ 1 1#1
  let main_v17 : IVec S_ 1 := (fun x v => Host.reduce IntOp.andi x v reducesTo_S32x96_S_d0_1 h_S_) main_v16 main_c_5
  let main_v18 : IVec S_ 1 := andi main_v13 main_v17
  let main_v19 : FVec F S32x96 .f32 := Host.absf main_arg4
  let main_cst_6 : FVec F S_ .f32 := constant S_ .f32 0x7F800000#32
  let main_v20 : FVec F S32x96 .f32 := broadcastInDim S32x96 ![] bcast_S_S32x96 main_cst_6
  let main_v21 : IVec S32x96 1 := cmpf .olt main_v19 main_v20
  let main_c_7 : IVec S_ 1 := constantI S_ 1 1#1
  let main_v22 : IVec S_ 1 := (fun x v => Host.reduce IntOp.andi x v reducesTo_S32x96_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96 .f32 := Host.absf main_arg6
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  main_v33

def fn {F : FTy → Type} [FloatOps F] (main_arg0 : FVec F S2x4096x4096 .f32) (main_arg1 : FVec F S2x4096x32 .f32) (main_arg2 : FVec F S1x1x32 .f32) (main_arg3 : FVec F S32x96 .f32) (main_arg4 : FVec F S32x96 .f32) (main_arg5 : FVec F S96 .f32) (main_arg6 : FVec F S96 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x32 .f32 := Host.absf main_arg1
  let main_cst_0 : FVec F S_ .f32 := constant S_ .f32 0x7F800000#32
  let main_v5 : FVec F S2x4096x32 .f32 := broadcastInDim S2x4096x32 ![] bcast_S_S2x4096x32 main_cst_0
  let main_v6 : IVec S2x4096x32 1 := cmpf .olt main_v4 main_v5
  let main_c_1 : IVec S_ 1 := constantI S_ 1 1#1
  let main_v7 : IVec S_ 1 := (fun x v => Host.reduce IntOp.andi x v reducesTo_S2x4096x32_S_d0_1_2 h_S_) main_v6 main_c_1
  let main_v8 : IVec S_ 1 := andi main_v3 main_v7
  let main_v9 : FVec F S1x1x32 .f32 := Host.absf main_arg2
  let main_cst_2 : FVec F S_ .f32 := constant S_ .f32 0x7F800000#32
  let main_v10 : FVec F S1x1x32 .f32 := broadcastInDim S1x1x32 ![] bcast_S_S1x1x32 main_cst_2
  let main_v11 : IVec S1x1x32 1 := cmpf .olt main_v9 main_v10
  let main_c_3 : IVec S_ 1 := constantI S_ 1 1#1
  let main_v12 : IVec S_ 1 := (fun x v => Host.reduce IntOp.andi x v reducesTo_S1x1x32_S_d0_1_2 h_S_) main_v11 main_c_3
  let main_v13 : IVec S_ 1 := andi main_v8 main_v12
  let main_v14 : FVec F S32x96 .f32 := Host.absf main_arg3
  let main_cst_4 : FVec F S_ .f32 := constant S_ .f32 0x7F800000#32
  let main_v15 : FVec F S32x96 .f32 := broadcastInDim S32x96 ![] bcast_S_S32x96 main_cst_4
  let main_v16 : IVec S32x96 1 := cmpf .olt main_v14 main_v15
  fn_part1 (F := F) main_arg4 main_arg5 main_arg6 main_v13 main_v16
-- ==== Kernel.lean ====
abbrev S2x4096x4096 : Shape := ⟨3, ![2, 4096, 4096]⟩
abbrev S2x4096x32 : Shape := ⟨3, ![2, 4096, 32]⟩
abbrev S1x1x32 : Shape := ⟨3, ![1, 1, 32]⟩
abbrev S32x96 : Shape := ⟨2, ![32, 96]⟩
abbrev S96 : Shape := ⟨1, ![96]⟩
abbrev S1x32 : Shape := ⟨2, ![1, 32]⟩
abbrev S1x96 : Shape := ⟨2, ![1, 96]⟩
abbrev S1x512x1024 : Shape := ⟨3, ![1, 512, 1024]⟩
abbrev S1x1024x32 : Shape := ⟨3, ![1, 1024, 32]⟩
abbrev S1x512x32 : Shape := ⟨3, ![1, 512, 32]⟩
abbrev S512x32 : Shape := ⟨2, ![512, 32]⟩
abbrev S512x1024 : Shape := ⟨2, ![512, 1024]⟩
abbrev S1024x32 : Shape := ⟨2, ![1024, 32]⟩
abbrev S32 : Shape := ⟨1, ![32]⟩
abbrev S512x96 : Shape := ⟨2, ![512, 96]⟩

abbrev nBuf : Space → Nat
  | .hbm => 11
  | .vmem => 14
  | .smem => 0
  | _ => 0

abbrev bufTy : (tb : Table) → Fin (tcTables nBuf tb) → BufTy
  | .hbm, ⟨0, _⟩ => ⟨S2x4096x4096, .f32⟩
  | .hbm, ⟨1, _⟩ => ⟨S2x4096x32, .f32⟩
  | .hbm, ⟨2, _⟩ => ⟨S1x1x32, .f32⟩
  | .hbm, ⟨3, _⟩ => ⟨S32x96, .f32⟩
  | .hbm, ⟨4, _⟩ => ⟨S32x96, .f32⟩
  | .hbm, ⟨5, _⟩ => ⟨S96, .f32⟩
  | .hbm, ⟨6, _⟩ => ⟨S96, .f32⟩
  | .hbm, ⟨7, _⟩ => ⟨S1x32, .f32⟩
  | .hbm, ⟨8, _⟩ => ⟨S1x96, .f32⟩
  | .hbm, ⟨9, _⟩ => ⟨S1x96, .f32⟩
  | .hbm, ⟨10, _⟩ => ⟨S2x4096x32, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x32, .f32⟩
  | .local _ .vmem, ⟨3, _⟩ => ⟨S1x1024x32, .f32⟩
  | .local _ .vmem, ⟨4, _⟩ => ⟨S1x512x32, .f32⟩
  | .local _ .vmem, ⟨5, _⟩ => ⟨S1x512x32, .f32⟩
  | .local _ .vmem, ⟨6, _⟩ => ⟨S1x32, .f32⟩
  | .local _ .vmem, ⟨7, _⟩ => ⟨S32x96, .f32⟩
  | .local _ .vmem, ⟨8, _⟩ => ⟨S32x96, .f32⟩
  | .local _ .vmem, ⟨9, _⟩ => ⟨S1x96, .f32⟩
  | .local _ .vmem, ⟨10, _⟩ => ⟨S1x96, .f32⟩
  | .local _ .vmem, ⟨11, _⟩ => ⟨S1x512x32, .f32⟩
  | .local _ .vmem, ⟨12, _⟩ => ⟨S1x512x32, .f32⟩
  | .local _ .vmem, ⟨13, _⟩ => ⟨S512x32, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S32x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S32x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

class Facts₀ : Prop where
  shapeCasts_S1x1x32_S1x32 : S1x1x32.ShapeCasts S1x32
  shapeCasts_S96_S1x96 : S96.ShapeCasts S1x96
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  inb_S1x32_S1x32_0_0 : ∀ a, (![0, 0] : Fin 2 → Nat) a + S1x32.size a ≤ S1x32.size a
  h_S1x32 : 0 < S1x32.numel
  shapeCasts_S1x32_S32 : S1x32.ShapeCasts S32
  shapeCasts_S32_S1x32 : S32.ShapeCasts S1x32
  broadcasts_S1x32_S512x32 : S1x32.Broadcasts S512x32
  inb_S32x96_S32x96_0_0 : ∀ a, (![0, 0] : Fin 2 → Nat) a + S32x96.size a ≤ S32x96.size a
  h_S32x96 : 0 < S32x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S512x96 : S1x96.Broadcasts S512x96
  slices_S512x96_o0_0_S512x32 : S512x96.Slices ![0, 0] S512x32
  slices_S512x96_o0_32_S512x32 : S512x96.Slices ![0, 32] S512x32
  slices_S512x96_o0_64_S512x32 : S512x96.Slices ![0, 64] S512x32
  shapeCasts_S512x32_S1x512x32 : S512x32.ShapeCasts S1x512x32
  dot_S512x1024_S1024x32_S512x32_1_0_0_1_n_n_wf : DotDims.WF S512x1024 S1024x32 S512x32 [1] [0] [0] [1] [] []
  dot_S512x32_S32x96_S512x96_1_0_0_1_n_n_wf : DotDims.WF S512x32 S32x96 S512x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x4096x4096.size a
  hwx0_0 : ∀ i : grid0.Coords, EltTy.bits .f32 = 32 ∨ (Rect.block (s := S2x4096x4096) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x32.size a ≤ S2x4096x32.size a
  hwx0_1 : ∀ i : grid0.Coords, EltTy.bits .f32 = 32 ∨ (Rect.block (s := S2x4096x32) S1x1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x32.size a ≤ S2x4096x32.size a
  hwx0_2 : ∀ i : grid0.Coords, EltTy.bits .f32 = 32 ∨ (Rect.block (s := S2x4096x32) S1x512x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x96.size a ≤ S32x96.size a
  hwx0_4 : ∀ i : grid0.Coords, EltTy.bits .f32 = 32 ∨ (Rect.block (s := S32x96) S32x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x96.size a ≤ S32x96.size a
  hwx0_5 : ∀ i : grid0.Coords, EltTy.bits .f32 = 32 ∨ (Rect.block (s := S32x96) S32x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x96.size a ≤ S1x96.size a
  hwx0_6 : ∀ i : grid0.Coords, EltTy.bits .f32 = 32 ∨ (Rect.block (s := S1x96) S1x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x96.size a ≤ S1x96.size a
  hwx0_7 : ∀ i : grid0.Coords, EltTy.bits .f32 = 32 ∨ (Rect.block (s := S1x96) S1x96.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x32.size a ≤ S2x4096x32.size a
  hwx0_8 : ∀ i : grid0.Coords, EltTy.bits .f32 = 32 ∨ (Rect.block (s := S2x4096x32) S1x512x32.size (cc0_transform_8 i) (hinb0_8 i)).WholeWords (EltTy.packing .f32)

variable [Facts₀]

def dot_S512x1024_S1024x32_S512x32_1_0_0_1_n_n : DotDims S512x1024 S1024x32 S512x32 where
  lhsContracting := [1]
  rhsContracting := [0]
  lhsNonContracting := [0]
  rhsNonContracting := [1]
  lhsBatch := []
  rhsBatch := []
  wf := dot_S512x1024_S1024x32_S512x32_1_0_0_1_n_n_wf
def dot_S512x32_S32x96_S512x96_1_0_0_1_n_n : DotDims S512x32 S32x96 S512x96 where
  lhsContracting := [1]
  rhsContracting := [0]
  lhsNonContracting := [0]
  rhsNonContracting := [1]
  lhsBatch := []
  rhsBatch := []
  wf := dot_S512x32_S32x96_S512x96_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v2) S1x96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x512x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond3 i == 1#1) | ⟨_ + 9, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S2x4096x32 : Shape := ⟨3, ![2, 4096, 32]⟩
abbrev S1x1x32 : Shape := ⟨3, ![1, 1, 32]⟩
abbrev S32x96 : Shape := ⟨2, ![32, 96]⟩
abbrev S96 : Shape := ⟨1, ![96]⟩
abbrev S8192x32 : Shape := ⟨2, ![8192, 32]⟩
abbrev S8192x96 : Shape := ⟨2, ![8192, 96]⟩
abbrev S1x96 : Shape := ⟨2, ![1, 96]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x32, .f32⟩
  | .hbm, ⟨2, _⟩ => ⟨S1x1x32, .f32⟩
  | .hbm, ⟨3, _⟩ => ⟨S32x96, .f32⟩
  | .hbm, ⟨4, _⟩ => ⟨S32x96, .f32⟩
  | .hbm, ⟨5, _⟩ => ⟨S96, .f32⟩
  | .hbm, ⟨6, _⟩ => ⟨S96, .f32⟩
  | .hbm, ⟨7, _⟩ => ⟨S2x4096x32, .f32⟩
  | .hbm, ⟨8, _⟩ => ⟨S2x4096x32, .f32⟩
  | .hbm, ⟨9, _⟩ => ⟨S2x4096x32, .f32⟩
  | .hbm, ⟨10, _⟩ => ⟨S8192x32, .f32⟩
  | .hbm, ⟨11, _⟩ => ⟨S8192x32, .f32⟩
  | .hbm, ⟨12, _⟩ => ⟨S8192x96, .f32⟩
  | .hbm, ⟨13, _⟩ => ⟨S1x96, .f32⟩
  | .hbm, ⟨14, _⟩ => ⟨S8192x96, .f32⟩
  | .hbm, ⟨15, _⟩ => ⟨S8192x96, .f32⟩
  | .hbm, ⟨16, _⟩ => ⟨S8192x96, .f32⟩
  | .hbm, ⟨17, _⟩ => ⟨S1x96, .f32⟩
  | .hbm, ⟨18, _⟩ => ⟨S8192x96, .f32⟩
  | .hbm, ⟨19, _⟩ => ⟨S8192x96, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S_, .f32⟩
  | .hbm, ⟨30, _⟩ => ⟨S8192x32, .f32⟩
  | .hbm, ⟨31, _⟩ => ⟨S8192x32, .f32⟩
  | .hbm, ⟨32, _⟩ => ⟨S_, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S_, .f32⟩
  | .hbm, ⟨39, _⟩ => ⟨S8192x32, .f32⟩
  | .hbm, ⟨40, _⟩ => ⟨S8192x32, .f32⟩
  | .hbm, ⟨41, _⟩ => ⟨S_, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S8192x32, .f32⟩
  | .hbm, ⟨48, _⟩ => ⟨S_, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S2x4096x32, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]

class Facts₀ : Prop where
  bcast_S1x1x32_S2x4096x32_0_1_2 : S1x1x32.BroadcastsInDim S2x4096x32 (![0, 1, 2] : Fin 3 → Fin S2x4096x32.rank)
  shapeCasts_S2x4096x32_S8192x32 : S2x4096x32.ShapeCasts S8192x32
  bcast_S96_S1x96_1 : S96.BroadcastsInDim S1x96 (![1] : Fin 1 → Fin S1x96.rank)
  bcast_S1x96_S8192x96_0_1 : S1x96.BroadcastsInDim S8192x96 (![0, 1] : Fin 2 → Fin S8192x96.rank)
  slices_S8192x96_S8192x32_0_0 : S8192x96.Slices ![0, 0] S8192x32
  slices_S8192x96_S8192x32_0_32 : S8192x96.Slices ![0, 32] S8192x32
  slices_S8192x96_S8192x32_0_64 : S8192x96.Slices ![0, 64] S8192x32
  bcast_S_S8192x32 : S_.BroadcastsInDim S8192x32 (![] : Fin 0 → Fin S8192x32.rank)
  shapeCasts_S8192x32_S2x4096x32 : S8192x32.ShapeCasts S2x4096x32
  dot_S2x4096x4096_S2x4096x32_S2x4096x32_2_1_1_2_0_0_wf : DotDims.WF S2x4096x4096 S2x4096x32 S2x4096x32 [2] [1] [1] [2] [0] [0]
  dot_S8192x32_S32x96_S8192x96_1_0_0_1_n_n_wf : DotDims.WF S8192x32 S32x96 S8192x96 [1] [0] [0] [1] [] []

variable [Facts₀]

def dot_S2x4096x4096_S2x4096x32_S2x4096x32_2_1_1_2_0_0 : DotDims S2x4096x4096 S2x4096x32 S2x4096x32 where
  lhsContracting := [2]
  rhsContracting := [1]
  lhsNonContracting := [1]
  rhsNonContracting := [2]
  lhsBatch := [0]
  rhsBatch := [0]
  wf := dot_S2x4096x4096_S2x4096x32_S2x4096x32_2_1_1_2_0_0_wf
def dot_S8192x32_S32x96_S8192x96_1_0_0_1_n_n : DotDims S8192x32 S32x96 S8192x96 where
  lhsContracting := [1]
  rhsContracting := [0]
  lhsNonContracting := [0]
  rhsNonContracting := [1]
  lhsBatch := []
  rhsBatch := []
  wf := dot_S8192x32_S32x96_S8192x96_1_0_0_1_n_n_wf

class Facts : Prop extends Facts₀ where

variable [Facts]
-- ==== Proof.KB.Setup.lean ====
/-
  The gated graph convolution kernel walks a grid of 2 × 8 × 4 points (batch, block of 512 rows, block of 1024
  columns of the adjacency).  This module fixes what every later module is stated over: the contents of the
  buffers when the kernel's region is entered (three reshapes of the bias vectors come first and touch no
  argument), each window's block of its array at a grid point, the three conditions the body branches on as
  conditions on the grid point (first column block; not the first; the last), and where the output window is
  idle (everywhere but at the last column block, where the finished rows are stored and written back).
-/
import proofs.«164906_g76081050681489_cont_9to1_m_207_10_alg».proof.Proof.Gen.Kernel.Launch
import proofs.«164906_g76081050681489_cont_9to1_m_207_10_alg».proof.Proof.Gen.Kernel.Skeleton
import proofs.«164906_g76081050681489_cont_9to1_m_207_10_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffer contents when the region is entered: the launch contents after the three reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the three reshapes followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No reshape before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block of its array at grid point `t`, the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: where it is
    not fetched its block index has not moved and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names every array's final contents -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).1 4).trans (((dats 0 c).arrAt_in 4 rfl _).trans ((hA c 4).trans (V_main_arg3 m c))),
      ((h c).1 5).trans (((dats 0 c).arrAt_in 5 rfl _).trans ((hA c 5).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's three conditions, as conditions on the grid point -/

/-- The point is in the first column block (`k = 0`): the accumulator is set. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- The point is in a later column block (`k ≠ 0`): the accumulator is added to. -/
abbrev condLater (i : grid0.Coords) : Prop := (Scalar.cmpi .ne (Scalar.extui (Scalar.cmpi .ne (BitVec.ofNat 32 (i 2).val) 0#32)) 0#32) = 1#1
theorem hcondLater : ∀ t : Fin cfg0.N, condLater (grid0.coords t) ↔ ¬ t.val % 4 = 0 :=
  (by decide +kernel : ∀ t : Fin grid0.N, condLater (grid0.coords t) ↔ ¬ t.val % 4 = 0)

/-- The point is in the last column block (`k = 3`): the rows are finished and stored. -/
abbrev condLast (i : grid0.Coords) : Prop := k0_cond3 i = 1#1
theorem hcondLast : ∀ t : Fin cfg0.N, condLast (grid0.coords t) ↔ t.val % 4 = 3 :=
  (by decide +kernel : ∀ t : Fin grid0.N, condLast (grid0.coords t) ↔ t.val % 4 = 3)

/-! ## Where the output window is idle -/

theorem idleAt8 : ∀ t : Fin cfg0.N, ¬condLast (grid0.coords t) → cfg0.idle 8 (grid0.coords t) = true := by decide +kernel
theorem noFlush8 : ∀ t : Fin cfg0.N, ¬condLast (grid0.coords t) → (cfg0.win 8).flush t = false := by decide +kernel
theorem liveAt8 : ∀ t : Fin cfg0.N, condLast (grid0.coords t) → cfg0.idle 8 (grid0.coords t) = false := by decide +kernel

/-! ## The staging memrefs the body is called with, and the scratch accumulator -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x96 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x96 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x96 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x96 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x32 .f32 := win0_8.stage (cfg0.slots t 8)
abbrev hs0_8 (t : Fin cfg0.N) : (ms0_8 t).IsWhole := hstage0_8 ((cfg0.slots t 8).cast nbuf0_8)
abbrev scM : Memref sig .tc .vmem S512x32 .f32 := Memref.whole cc0_scratch0
abbrev VS : View sig .tc .vmem S512x32 .f32 := scM.view
abbrev VO : View sig .tc .vmem S1x512x32 .f32 := (Memref.whole cc0_stg8_0 : Memref sig .tc .vmem S1x512x32 .f32).view

/-- What the region hands the body besides the windows: the scratch accumulator at some contents, and the
    generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KB.RunFirst.lean ====
/-
  The body at a grid point in the FIRST column block (k = 0): it multiplies the adjacency tile by the
  annotation chunk and stores the product into the scratch accumulator, whatever the accumulator held.
  Nothing else is touched.  The run is stated over the two operand buffers and the accumulator only.
-/
import proofs.«164906_g76081050681489_cont_9to1_m_207_10_alg».proof.Proof.KB.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case "first": the pieces the accumulator ends with (one whole store of the tile product), with the proof
    that the body runs to a continuation holding the operands as they were and the accumulator with those
    pieces written. -/
noncomputable def runFirst (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole)
    (hc1 : condFirst i) (hc2 : ¬condLater i) (hc3 : ¬condLast i)
    (x0 : Vec F S1x512x1024 .f32) (x1 : Vec F S1x1024x32 .f32) :
    { LS : List (View.Piece (Elt F) S512x32 .f32) //
      ∀ (E : Set ℕ) (K : PUnit → sProp 𝕄),
        iprop(owns (c : Thread nD τ) arg3 fullShare x0 ∗ owns (c : Thread nD τ) arg4 fullShare x1 ∗ (∃ xs, owns (c : Thread nD τ) arg12 fullShare xs)
            ∗ (iprop(owns (c : Thread nD τ) arg3 fullShare x0 ∗ owns (c : Thread nD τ) arg4 fullShare x1 ∗ (∃ f, arg12.view.loc (c : Thread nD τ) ↦[arg12.view.set]{fullShare} arg12.view.writes (Elt F) f LS)) -∗ K ⟨⟩))
          ⊢ wp frame (wpE (defs₀ (F := F)) Variants.none c none) E (cc0__ggc_body i arg3 harg3 arg4 harg4 arg5 harg5 arg6 harg6 arg7 harg7 arg8 harg8 arg9 harg9 arg10 harg10 arg11 harg11 arg12 harg12) K } := by
  refine ⟨?_, fun E K => ?run⟩
  case run =>
    simp only [cc0__ggc_body_eq_skeleton]; unfold cc0__ggc_body_skel
    unfold owns
    iintro ⟨⟨%f0, %hf0, H0⟩, ⟨%f1, %hf1, H1⟩, ⟨%xs, %fs, %hfs, HS⟩, Hk⟩
    obtain rfl := harg3.eq_unread hf0; obtain rfl := harg4.eq_unread hf1; obtain rfl := harg12.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.Kernel.Hand

end
-- ==== Proof.KB.RunLater.lean ====
/-
  The body at a grid point in a LATER column block that is not the last (k = 1, 2): it adds the product of
  the adjacency tile and the annotation chunk to the scratch accumulator.  Nothing else is touched.
-/
import proofs.«164906_g76081050681489_cont_9to1_m_207_10_alg».proof.Proof.KB.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case "later": the pieces the accumulator ends with (one whole store of accumulator + tile product), with the
    proof that the body runs to a continuation holding the operands as they were and the accumulator, found at
    `xs`, with those pieces written. -/
noncomputable def runLater (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole)
    (hc1 : ¬condFirst i) (hc2 : condLater i) (hc3 : ¬condLast i)
    (x0 : Vec F S1x512x1024 .f32) (x1 : Vec F S1x1024x32 .f32) (xs : Vec F S512x32 .f32) :
    { LS : List (View.Piece (Elt F) S512x32 .f32) //
      ∀ (E : Set ℕ) (K : PUnit → sProp 𝕄),
        iprop(owns (c : Thread nD τ) arg3 fullShare x0 ∗ owns (c : Thread nD τ) arg4 fullShare x1 ∗ owns (c : Thread nD τ) arg12 fullShare xs
            ∗ (iprop(owns (c : Thread nD τ) arg3 fullShare x0 ∗ owns (c : Thread nD τ) arg4 fullShare x1 ∗ (∃ f, arg12.view.loc (c : Thread nD τ) ↦[arg12.view.set]{fullShare} arg12.view.writes (Elt F) f LS)) -∗ K ⟨⟩))
          ⊢ wp frame (wpE (defs₀ (F := F)) Variants.none c none) E (cc0__ggc_body i arg3 harg3 arg4 harg4 arg5 harg5 arg6 harg6 arg7 harg7 arg8 harg8 arg9 harg9 arg10 harg10 arg11 harg11 arg12 harg12) K } := by
  refine ⟨?_, fun E K => ?run⟩
  case run =>
    simp only [cc0__ggc_body_eq_skeleton]; unfold cc0__ggc_body_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg12.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.Kernel.Hand

end
-- ==== Proof.KB.RunLast.lean ====
/-
  The body at a grid point in the LAST column block (k = 3): it adds the last tile product to the scratch
  accumulator, then reads the accumulator back, adds the convolution bias, applies the GRU step against the
  hidden-state block with the two weight matrices and the two bias rows, and stores the 512 finished rows into
  the output window's buffer.
-/
import proofs.«164906_g76081050681489_cont_9to1_m_207_10_alg».proof.Proof.KB.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case "last": the pieces the output buffer and the accumulator end with, with the proof that the body runs
    to a continuation holding every input buffer as it was, the output buffer (found at anything) and the
    accumulator (found at `xs`) with those pieces written. -/
noncomputable def runLast (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole)
    (hc1 : ¬condFirst i) (hc2 : condLater i) (hc3 : condLast i)
    (x0 : Vec F S1x512x1024 .f32) (x1 : Vec F S1x1024x32 .f32) (x2 : Vec F S1x512x32 .f32) (x3 : Vec F S1x32 .f32)
    (x4 : Vec F S32x96 .f32) (x5 : Vec F S32x96 .f32) (x6 : Vec F S1x96 .f32) (x7 : Vec F S1x96 .f32) (xs : Vec F S512x32 .f32) :
    Σ' (L8 : List (View.Piece (Elt F) S1x512x32 .f32)), { LS : List (View.Piece (Elt F) S512x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare x7
            ∗ (∃ x8, owns (c : Thread nD τ) arg11 fullShare x8) ∗ owns (c : Thread nD τ) arg12 fullShare xs
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4 ∗ owns (c : Thread nD τ) arg8 fullShare x5
                ∗ owns (c : Thread nD τ) arg9 fullShare x6 ∗ owns (c : Thread nD τ) arg10 fullShare x7
                ∗ (∃ f, arg11.view.loc (c : Thread nD τ) ↦[arg11.view.set]{fullShare} arg11.view.writes (Elt F) f L8)
                ∗ (∃ f, arg12.view.loc (c : Thread nD τ) ↦[arg12.view.set]{fullShare} arg12.view.writes (Elt F) f LS)) -∗ K ⟨⟩))
          ⊢ wp frame (wpE (defs₀ (F := F)) Variants.none c none) E (cc0__ggc_body i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__ggc_body_eq_skeleton]; unfold cc0__ggc_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%x8, %f8, %hf8, H8⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7; obtain rfl := harg11.eq_unread hf8
    obtain rfl := harg12.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; iexact H8
    iexists _; iexact HS

end Cert.Kernel.Hand

end
-- ==== Proof.KB.Pieces.lean ====
/-
  What each case of the body leaves behind, as values.  In every case the accumulator ends at ONE whole
  store: the tile product (first column block) or the accumulator it found plus the tile product (later
  blocks).  In the last column block the output buffer ends at one whole store of the GRU step applied to
  that final accumulator, the hidden-state block and the weights.
-/
import proofs.«164906_g76081050681489_cont_9to1_m_207_10_alg».proof.Proof.KB.RunFirst
import proofs.«164906_g76081050681489_cont_9to1_m_207_10_alg».proof.Proof.KB.RunLater
import proofs.«164906_g76081050681489_cont_9to1_m_207_10_alg».proof.Proof.KB.RunLast
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; fin_cases a <;> rfl
theorem hz3 : (![0, 0, 0] : Fin 3 → Nat) = fun _ => 0 := by funext a; fin_cases a <;> rfl

theorem coverFirst (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : condFirst i) (hc2 : ¬condLater i) (hc3 : ¬condLast i)
    (x0 : Vec F S1x512x1024 .f32) (x1 : Vec F S1x1024x32 .f32) (y : S512x32.Idx) :
    ∃ pc ∈ (runFirst c i arg3 harg3 arg4 harg4 arg5 harg5 arg6 harg6 arg7 harg7 arg8 harg8 arg9 harg9 arg10 harg10 arg11 harg11 arg12 harg12 hc1 hc2 hc3 x0 x1).1, y ∈ pc.1.set :=
  View.cover_of_tiledL (runFirst c i arg3 harg3 arg4 harg4 arg5 harg5 arg6 harg6 arg7 harg7 arg8 harg8 arg9 harg9 arg10 harg10 arg11 harg11 arg12 harg12 hc1 hc2 hc3 x0 x1).1 S512x32.size (by sl_kernel_rfl) y

/-- After the first column block the accumulator holds the tile product. -/
theorem accFirst_eq (v : View sig .tc .vmem S512x32 .f32) (f : v.ty.Contents (Elt F)) (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : condFirst i) (hc2 : ¬condLater i) (hc3 : ¬condLast i)
    (x0 : Vec F S1x512x1024 .f32) (x1 : Vec F S1x1024x32 .f32) :
    v.read (Elt F) (v.writes (Elt F) f (runFirst c i arg3 harg3 arg4 harg4 arg5 harg5 arg6 harg6 arg7 harg7 arg8 harg8 arg9 harg9 arg10 harg10 arg11 harg11 arg12 harg12 hc1 hc2 hc3 x0 x1).1) = k0_pay2 x0 x1 := by
  rw [View.read_writes_eq_canon _ _ _ (coverFirst c i arg3 harg3 arg4 harg4 arg5 harg5 arg6 harg6 arg7 harg7 arg8 harg8 arg9 harg9 arg10 harg10 arg11 harg11 arg12 harg12 hc1 hc2 hc3 x0 x1)]
  unfold runFirst
  dsimp only
  rw [View.canon_unit_zero (S := S512x32) hz2]
  simp only [View.readAt_eq_ld, harg3.read_unread, harg4.read_unread, View.ld_unit_zero (S := S1x512x1024) hz3, View.ld_unit_zero (S := S1x1024x32) hz3]

theorem coverLater (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : ¬condFirst i) (hc2 : condLater i) (hc3 : ¬condLast i)
    (x0 : Vec F S1x512x1024 .f32) (x1 : Vec F S1x1024x32 .f32) (xs : Vec F S512x32 .f32) (y : S512x32.Idx) :
    ∃ pc ∈ (runLater c i arg3 harg3 arg4 harg4 arg5 harg5 arg6 harg6 arg7 harg7 arg8 harg8 arg9 harg9 arg10 harg10 arg11 harg11 arg12 harg12 hc1 hc2 hc3 x0 x1 xs).1, y ∈ pc.1.set :=
  View.cover_of_tiledL (runLater c i arg3 harg3 arg4 harg4 arg5 harg5 arg6 harg6 arg7 harg7 arg8 harg8 arg9 harg9 arg10 harg10 arg11 harg11 arg12 harg12 hc1 hc2 hc3 x0 x1 xs).1 S512x32.size (by sl_kernel_rfl) y

/-- After a later column block the accumulator holds what it held plus the tile product. -/
theorem accLater_eq (v : View sig .tc .vmem S512x32 .f32) (f : v.ty.Contents (Elt F)) (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : ¬condFirst i) (hc2 : condLater i) (hc3 : ¬condLast i)
    (x0 : Vec F S1x512x1024 .f32) (x1 : Vec F S1x1024x32 .f32) (xs : Vec F S512x32 .f32) :
    v.read (Elt F) (v.writes (Elt F) f (runLater c i arg3 harg3 arg4 harg4 arg5 harg5 arg6 harg6 arg7 harg7 arg8 harg8 arg9 harg9 arg10 harg10 arg11 harg11 arg12 harg12 hc1 hc2 hc3 x0 x1 xs).1) = k0_pay3 x0 x1 xs := by
  rw [View.read_writes_eq_canon _ _ _ (coverLater c i arg3 harg3 arg4 harg4 arg5 harg5 arg6 harg6 arg7 harg7 arg8 harg8 arg9 harg9 arg10 harg10 arg11 harg11 arg12 harg12 hc1 hc2 hc3 x0 x1 xs)]
  unfold runLater
  dsimp only
  rw [View.canon_unit_zero (S := S512x32) hz2]
  simp only [View.readAt_eq_ld, harg3.read_unread, harg4.read_unread, harg12.read_unread, View.ld_unit_zero (S := S1x512x1024) hz3, View.ld_unit_zero (S := S1x1024x32) hz3, View.ld_unit_zero (S := S512x32) hz2]

theorem coverSLast (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : ¬condFirst i) (hc2 : condLater i) (hc3 : condLast i)
    (x0 : Vec F S1x512x1024 .f32) (x1 : Vec F S1x1024x32 .f32) (x2 : Vec F S1x512x32 .f32) (x3 : Vec F S1x32 .f32)
    (x4 : Vec F S32x96 .f32) (x5 : Vec F S32x96 .f32) (x6 : Vec F S1x96 .f32) (x7 : Vec F S1x96 .f32) (xs : Vec F S512x32 .f32) (y : S512x32.Idx) :
    ∃ pc ∈ (runLast c i arg3 harg3 arg4 harg4 arg5 harg5 arg6 harg6 arg7 harg7 arg8 harg8 arg9 harg9 arg10 harg10 arg11 harg11 arg12 harg12 hc1 hc2 hc3 x0 x1 x2 x3 x4 x5 x6 x7 xs).2.1, y ∈ pc.1.set :=
  View.cover_of_tiledL (runLast c i arg3 harg3 arg4 harg4 arg5 harg5 arg6 harg6 arg7 harg7 arg8 harg8 arg9 harg9 arg10 harg10 arg11 harg11 arg12 harg12 hc1 hc2 hc3 x0 x1 x2 x3 x4 x5 x6 x7 xs).2.1 S512x32.size (by sl_kernel_rfl) y

theorem cover8Last (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : ¬condFirst i) (hc2 : condLater i) (hc3 : condLast i)
    (x0 : Vec F S1x512x1024 .f32) (x1 : Vec F S1x1024x32 .f32) (x2 : Vec F S1x512x32 .f32) (x3 : Vec F S1x32 .f32)
    (x4 : Vec F S32x96 .f32) (x5 : Vec F S32x96 .f32) (x6 : Vec F S1x96 .f32) (x7 : Vec F S1x96 .f32) (xs : Vec F S512x32 .f32) (y : S1x512x32.Idx) :
    ∃ pc ∈ (runLast c i arg3 harg3 arg4 harg4 arg5 harg5 arg6 harg6 arg7 harg7 arg8 harg8 arg9 harg9 arg10 harg10 arg11 harg11 arg12 harg12 hc1 hc2 hc3 x0 x1 x2 x3 x4 x5 x6 x7 xs).1, y ∈ pc.1.set :=
  View.cover_of_tiledL (runLast c i arg3 harg3 arg4 harg4 arg5 harg5 arg6 harg6 arg7 harg7 arg8 harg8 arg9 harg9 arg10 harg10 arg11 harg11 arg12 harg12 hc1 hc2 hc3 x0 x1 x2 x3 x4 x5 x6 x7 xs).1 S1x512x32.size (by sl_kernel_rfl) y

/-- After the last column block the accumulator holds what it held plus the last tile product. -/
theorem accLast_eq (v : View sig .tc .vmem S512x32 .f32) (f : v.ty.Contents (Elt F)) (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : ¬condFirst i) (hc2 : condLater i) (hc3 : condLast i)
    (x0 : Vec F S1x512x1024 .f32) (x1 : Vec F S1x1024x32 .f32) (x2 : Vec F S1x512x32 .f32) (x3 : Vec F S1x32 .f32)
    (x4 : Vec F S32x96 .f32) (x5 : Vec F S32x96 .f32) (x6 : Vec F S1x96 .f32) (x7 : Vec F S1x96 .f32) (xs : Vec F S512x32 .f32) :
    v.read (Elt F) (v.writes (Elt F) f (runLast c i arg3 harg3 arg4 harg4 arg5 harg5 arg6 harg6 arg7 harg7 arg8 harg8 arg9 harg9 arg10 harg10 arg11 harg11 arg12 harg12 hc1 hc2 hc3 x0 x1 x2 x3 x4 x5 x6 x7 xs).2.1) = k0_pay3 x0 x1 xs := by
  rw [View.read_writes_eq_canon _ _ _ (coverSLast c i arg3 harg3 arg4 harg4 arg5 harg5 arg6 harg6 arg7 harg7 arg8 harg8 arg9 harg9 arg10 harg10 arg11 harg11 arg12 harg12 hc1 hc2 hc3 x0 x1 x2 x3 x4 x5 x6 x7 xs)]
  unfold runLast
  dsimp only
  sl_unfold_run_names
  first
  | (rw [View.canon_unit_zero (S := S512x32) hz2]
     simp only [View.readAt_eq_ld, harg3.read_unread, harg4.read_unread, harg12.read_unread, View.ld_unit_zero (S := S1x512x1024) hz3, View.ld_unit_zero (S := S1x1024x32) hz3, View.ld_unit_zero (S := S512x32) hz2])
  | (trace_state; fail "accLast")

/-- and the output buffer holds the GRU step of that final accumulator, the hidden-state block, the bias row,
    the two weight matrices and the two bias rows. -/
theorem outLast_eq (v : View sig .tc .vmem S1x512x32 .f32) (f : v.ty.Contents (Elt F)) (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : ¬condFirst i) (hc2 : condLater i) (hc3 : condLast i)
    (x0 : Vec F S1x512x1024 .f32) (x1 : Vec F S1x1024x32 .f32) (x2 : Vec F S1x512x32 .f32) (x3 : Vec F S1x32 .f32)
    (x4 : Vec F S32x96 .f32) (x5 : Vec F S32x96 .f32) (x6 : Vec F S1x96 .f32) (x7 : Vec F S1x96 .f32) (xs : Vec F S512x32 .f32) :
    v.read (Elt F) (v.writes (Elt F) f (runLast c i arg3 harg3 arg4 harg4 arg5 harg5 arg6 harg6 arg7 harg7 arg8 harg8 arg9 harg9 arg10 harg10 arg11 harg11 arg12 harg12 hc1 hc2 hc3 x0 x1 x2 x3 x4 x5 x6 x7 xs).1) = k0_pay4 (k0_pay5 x2 (k0_pay3 x0 x1 xs) x3 x4 x6 x5 x7) := by
  rw [View.read_writes_eq_canon _ _ _ (cover8Last c i arg3 harg3 arg4 harg4 arg5 harg5 arg6 harg6 arg7 harg7 arg8 harg8 arg9 harg9 arg10 harg10 arg11 harg11 arg12 harg12 hc1 hc2 hc3 x0 x1 x2 x3 x4 x5 x6 x7 xs)]
  unfold runLast
  dsimp only
  rw [View.canon_unit_zero (S := S1x512x32) hz3]
  sl_unfold_run_names
  first
  | (rw [View.readCov_unit_zero (S := S512x32) arg12.view hz2]
     simp only [View.readAt_eq_ld, harg3.read_unread, harg4.read_unread, harg5.read_unread, harg6.read_unread, harg7.read_unread, harg8.read_unread, harg9.read_unread, harg10.read_unread, harg12.read_unread,
       View.ld_unit_zero (S := S1x512x1024) hz3, View.ld_unit_zero (S := S1x1024x32) hz3, View.ld_unit_zero (S := S512x32) hz2, View.ld_unit_zero (S := S1x512x32) hz3,
       View.ld_unit_zero (S := S1x32) hz2, View.ld_unit_zero (S := S32x96) hz2, View.ld_unit_zero (S := S1x96) hz2])
  | (trace_state; fail "outLast")

end Cert.Kernel.Hand

end
-- ==== Proof.KB.Frame.lean ====
/-
  The proof data of the pipelined kernel and its body obligation.
  Grid point number t is (batch, row block, column block) with column block k = t mod 4.  The scratch
  accumulator after point t holds the partial contraction over column blocks 0..k of the adjacency tile rows
  against the annotation chunks:  acc(t) = tile(t)·chunk(t) when k = 0, and acc(t-1) + tile(t)·chunk(t)
  otherwise.  The output window's buffer is stored only when k = 3, with the GRU step of acc(t); elsewhere the
  window is idle.  Between points the invariant holds the accumulator at acc(t-1) (at anything before the
  first point).  The annotation array is read through two windows (the chunk and the hidden-state block); each
  holds half of its share.
-/
import proofs.«164906_g76081050681489_cont_9to1_m_207_10_alg».proof.Proof.KB.Pieces
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator after each point, and the rows stored at the last column block -/

def accAt (c : Dev nD) : (n : ℕ) → n < cfg0.N → Vec F S512x32 .f32
  | 0, hn => k0_pay2 (iblk m c 0 ⟨0, hn⟩) (iblk m c 1 ⟨0, hn⟩)
  | n + 1, hn =>
    if (n + 1) % 4 = 0 then k0_pay2 (iblk m c 0 ⟨n + 1, hn⟩) (iblk m c 1 ⟨n + 1, hn⟩)
    else k0_pay3 (iblk m c 0 ⟨n + 1, hn⟩) (iblk m c 1 ⟨n + 1, hn⟩) (accAt c n (Nat.lt_of_succ_lt hn))

theorem accAt_first (c : Dev nD) (t : Fin cfg0.N) (h0 : t.val % 4 = 0) :
    accAt m c t.val t.isLt = k0_pay2 (iblk m c 0 t) (iblk m c 1 t) := by
  obtain ⟨n, hn⟩ := t
  cases n with
  | zero => rfl
  | succ n => exact if_pos h0

theorem accAt_later (c : Dev nD) (t : Fin cfg0.N) (h0 : ¬ t.val % 4 = 0) :
    accAt m c t.val t.isLt = k0_pay3 (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact if_neg h0

/-- The rows the last column block stores: the GRU step of the finished accumulator. -/
def outAt (c : Dev nD) (t : Fin cfg0.N) : FVec F S1x512x32 .f32 :=
  k0_pay4 (k0_pay5 (iblk m c 2 t) (accAt m c t.val t.isLt) (iblk m c 3 t) (iblk m c 4 t) (iblk m c 6 t) (iblk m c 5 t) (iblk m c 7 t))

/-! ## The invariant between points -/

def PhiS (c : Dev nD) : (n : ℕ) → n ≤ cfg0.N → sProp 𝕄
  | 0, _ => Pipeline.scopedRest spec0 c
  | n + 1, hn => owns (c : Thread nD τ) scM fullShare (accAt m c n hn)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The scoped buffers that are no staging buffer: the accumulator, at some contents. -/
theorem scoped_eq (c : Dev nD) :
    (Pipeline.scopedRest spec0 c : sProp 𝕄) = iprop(∃ d, owns (c : Thread nD τ) scM fullShare d) := by
  rw [scopedRest0_eq]; simp only [scM, owns_whole]; try rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem liveIn0 : ∀ t : Fin cfg0.N, cfg0.idle 0 (grid0.coords t) = false := by decide +kernel
theorem leaves0_0 (c : Dev nD) (t : Fin cfg0.N) : (dats m 0 c).leavesExact 0 t = owns (c : Thread nD τ) (ms0_0 t) fullShare (iblk m c 0 t) := by
  unfold Dat.leavesExact; rw [liveIn0 t, after0_0]
theorem liveIn1 : ∀ t : Fin cfg0.N, cfg0.idle 1 (grid0.coords t) = false := by decide +kernel
theorem leaves0_1 (c : Dev nD) (t : Fin cfg0.N) : (dats m 0 c).leavesExact 1 t = owns (c : Thread nD τ) (ms0_1 t) fullShare (iblk m c 1 t) := by
  unfold Dat.leavesExact; rw [liveIn1 t, after0_1]
theorem liveIn2 : ∀ t : Fin cfg0.N, cfg0.idle 2 (grid0.coords t) = false := by decide +kernel
theorem leaves0_2 (c : Dev nD) (t : Fin cfg0.N) : (dats m 0 c).leavesExact 2 t = owns (c : Thread nD τ) (ms0_2 t) fullShare (iblk m c 2 t) := by
  unfold Dat.leavesExact; rw [liveIn2 t, after0_2]
theorem liveIn3 : ∀ t : Fin cfg0.N, cfg0.idle 3 (grid0.coords t) = false := by decide +kernel
theorem leaves0_3 (c : Dev nD) (t : Fin cfg0.N) : (dats m 0 c).leavesExact 3 t = owns (c : Thread nD τ) (ms0_3 t) fullShare (iblk m c 3 t) := by
  unfold Dat.leavesExact; rw [liveIn3 t, after0_3]
theorem liveIn4 : ∀ t : Fin cfg0.N, cfg0.idle 4 (grid0.coords t) = false := by decide +kernel
theorem leaves0_4 (c : Dev nD) (t : Fin cfg0.N) : (dats m 0 c).leavesExact 4 t = owns (c : Thread nD τ) (ms0_4 t) fullShare (iblk m c 4 t) := by
  unfold Dat.leavesExact; rw [liveIn4 t, after0_4]
theorem liveIn5 : ∀ t : Fin cfg0.N, cfg0.idle 5 (grid0.coords t) = false := by decide +kernel
theorem leaves0_5 (c : Dev nD) (t : Fin cfg0.N) : (dats m 0 c).leavesExact 5 t = owns (c : Thread nD τ) (ms0_5 t) fullShare (iblk m c 5 t) := by
  unfold Dat.leavesExact; rw [liveIn5 t, after0_5]
theorem liveIn6 : ∀ t : Fin cfg0.N, cfg0.idle 6 (grid0.coords t) = false := by decide +kernel
theorem leaves0_6 (c : Dev nD) (t : Fin cfg0.N) : (dats m 0 c).leavesExact 6 t = owns (c : Thread nD τ) (ms0_6 t) fullShare (iblk m c 6 t) := by
  unfold Dat.leavesExact; rw [liveIn6 t, after0_6]
theorem liveIn7 : ∀ t : Fin cfg0.N, cfg0.idle 7 (grid0.coords t) = false := by decide +kernel
theorem leaves0_7 (c : Dev nD) (t : Fin cfg0.N) : (dats m 0 c).leavesExact 7 t = owns (c : Thread nD τ) (ms0_7 t) fullShare (iblk m c 7 t) := by
  unfold Dat.leavesExact; rw [liveIn7 t, after0_7]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- Before any point the invariant yields the accumulator at some contents. -/
theorem Phi_some (c : Dev nD) (t : Fin cfg0.N) :
    (dats m 0 c).Φ t.castSucc ⊢ iprop(∃ xs, owns (c : Thread nD τ) scM fullShare xs) := by
  rw [PhiS_castSucc m c t]
  by_cases hz : t.val = 0
  · rw [PhiS_zero m c _ _ hz, scoped_eq]
  · rw [PhiS_pos m c _ _ hz]; iintro HS; iexists _; iexact HS

set_option maxHeartbeats 4800000 in
/-- The body at any point: which of the three cases applies is decided by t mod 4; the accumulator is handed
    over at what the point before left (at anything at the first point) and taken back at this point's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  have hN : t.val < 64 := lt_of_lt_of_eq t.isLt (show cfg0.N = 64 from N_0)
  by_cases h0 : t.val % 4 = 0
  · have hF : condFirst (grid0.coords t) := (hcondFirst t).mpr h0
    have hnL : ¬condLater (grid0.coords t) := fun h => (hcondLater t).mp h h0
    have hnZ : ¬condLast (grid0.coords t) := fun h => by have := (hcondLast t).mp h; omega
    rw [Dat.leavesExact_idle (dats m 0 c) 8 t (idleAt8 t hnZ) (noFlush8 t hnZ)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HS := (Phi_some m c t) $$ HΦ
    iapply ((runFirst c (grid0.coords t) _ _ _ _ _ _ _ _ _ _ _ _ _ _ _ _ _ _ _ _ hF hnL hnZ (iblk m c 0 t) (iblk m c 1 t)).2 Set.univ _)
    isplitl [H0]; · iexact H0
    isplitl [H1]; · iexact H1
    isplitl [HS]; · iexact HS
    iintro ⟨H0, H1, ⟨%f, HS⟩⟩
    isplitl [HS]
    · unfold owns; iexists _; isplitr
      swap; · iexact HS
      ipureintro; exact (accFirst_eq _ _ c (grid0.coords t) _ _ _ _ _ _ _ _ _ _ _ _ _ _ _ _ _ _ _ _ hF hnL hnZ _ _).trans (accAt_first m c t h0).symm
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hnF : ¬condFirst (grid0.coords t) := fun h => h0 ((hcondFirst t).mp h)
    have hL : condLater (grid0.coords t) := (hcondLater t).mpr h0
    have hz : t.val ≠ 0 := fun e => h0 (by rw [e])
    by_cases h3 : t.val % 4 = 3
    · have hZ : condLast (grid0.coords t) := (hcondLast t).mpr h3
      rw [show (dats m 0 c).leavesExact 8 t = owns (c : Thread nD τ) (ms0_8 t) fullShare (outAt m c t) from by
        unfold Dat.leavesExact; rw [liveAt8 t hZ, after0_8]]
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast c (grid0.coords t) _ _ _ _ _ _ _ _ _ _ _ _ _ _ _ _ _ _ _ _ hnF hL hZ (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%f8, H8⟩, ⟨%fs, HS⟩⟩
      isplitl [HS]
      · unfold owns; iexists _; isplitr
        swap; · iexact HS
        ipureintro; exact (accLast_eq _ _ c (grid0.coords t) _ _ _ _ _ _ _ _ _ _ _ _ _ _ _ _ _ _ _ _ hnF hL hZ _ _ _ _ _ _ _ _ _).trans (accAt_later m c t h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact (outLast_eq _ _ c (grid0.coords t) _ _ _ _ _ _ _ _ _ _ _ _ _ _ _ _ _ _ _ _ hnF hL hZ _ _ _ _ _ _ _ _ _).trans (by unfold outAt; rw [accAt_later m c t h0])
    · have hnZ : ¬condLast (grid0.coords t) := fun h => h3 ((hcondLast t).mp h)
      rw [Dat.leavesExact_idle (dats m 0 c) 8 t (idleAt8 t hnZ) (noFlush8 t hnZ)]
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLater c (grid0.coords t) _ _ _ _ _ _ _ _ _ _ _ _ _ _ _ _ _ _ _ _ hnF hL hnZ (iblk m c 0 t) (iblk m c 1 t) _).2 Set.univ _)
      isplitl [H0]; · iexact H0
      isplitl [H1]; · iexact H1
      isplitl [HS]; · iexact HS
      iintro ⟨H0, H1, ⟨%f, HS⟩⟩
      isplitl [HS]
      · unfold owns; iexists _; isplitr
        swap; · iexact HS
        ipureintro; exact (accLater_eq _ _ c (grid0.coords t) _ _ _ _ _ _ _ _ _ _ _ _ _ _ _ _ _ _ _ _ hnF hL hnZ _ _ _).trans (accAt_later m c t h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch: the arrays dealt to the windows, the invariant in and out -/

theorem arr_pt (c : Dev nD) (w : Fin cfg0.W) (q : PosShare TreeShare) (f : Buf (Elt F) ((cfg0.win w).arr.view.loc (c.tc : Thread nD τ))) :
    ((cfg0.win w).arr.view.loc (c.tc : Thread nD τ) ↦[(cfg0.win w).arr.view.set]{q} f : sProp 𝕄)
      = (((c.tc : Thread nD τ).loc (Pipeline.arrRef spec0 w)) ↦{q} f) := by
  rw [(arr_whole0 w).set_eq_univ]

/-- The buffers behind the nine windows are eight: the annotation array serves the chunk window and the
    hidden-state window, each at half of its share. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  rw [bigSep_eq_bigSepL_of_eq [main_arg0, main_arg1, main_call0_v0, main_arg3, main_arg4, main_call0_v1, main_call0_v2, main_v0] (by decide) (by decide)]
  dsimp only
  rw [arr_pt c 0, arr_pt c 1, arr_pt c 2, arr_pt c 3, arr_pt c 4, arr_pt c 5, arr_pt c 6, arr_pt c 7, arr_pt c 8]
  rw [show bigSepL [main_arg0, main_arg1, main_call0_v0, main_arg3, main_arg4, main_call0_v1, main_call0_v2, main_v0]
        (fun b => (((c.tc : Thread nD τ).loc b) ↦{fullShare} V m c b : sProp 𝕄))
      = iprop((((c.tc : Thread nD τ).loc main_arg0) ↦{fullShare} V m c main_arg0) ∗ (((c.tc : Thread nD τ).loc main_arg1) ↦{fullShare} V m c main_arg1) ∗ (((c.tc : Thread nD τ).loc main_call0_v0) ↦{fullShare} V m c main_call0_v0) ∗ (((c.tc : Thread nD τ).loc main_arg3) ↦{fullShare} V m c main_arg3) ∗ (((c.tc : Thread nD τ).loc main_arg4) ↦{fullShare} V m c main_arg4) ∗ (((c.tc : Thread nD τ).loc main_call0_v1) ↦{fullShare} V m c main_call0_v1) ∗ (((c.tc : Thread nD τ).loc main_call0_v2) ↦{fullShare} V m c main_call0_v2) ∗ (((c.tc : Thread nD τ).loc main_v0) ↦{fullShare} V m c main_v0)) from rfl]
  iintro ⟨H0, H1, H3, H4, H5, H6, H7, H8⟩
  ihave H1 := (pointsTo_share (PosShare.mem_left_op_right fullShare)).1 $$ H1
  icases H1 with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem hin (c : Dev nD) : iprop(emp ∗ Pipeline.scopedRest spec0 c) ⊢ (dats m 0 c).Φ 0 := by
  rw [show (dats m 0 c).Φ 0 = Pipeline.scopedRest spec0 c from rfl]
  iintro ⟨-, H⟩; iexact H

theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro HS; isplitr; · iempintro
  iexists _; iexact HS

/-! ## The run and the frame -/

set_option backward.isDefEq.respectTransparency.types false in
/-- Every weakly fair execution terminates; every array of the pipeline ends at what the write-backs leave and
    every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨fun w => (h c).1 w, (h c).2⟩)

/-- info: 'Cert.Kernel.Hand.run_main' depends on axioms: [propext, Classical.choice, Quot.sound] -/
#guard_msgs in #print axioms run_main

/-- The frame: the program runs to the end and leaves its seven argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KI.Setup.lean ====
/-
  The gated graph convolution kernel walks a grid of 2 × 8 × 4 points (batch, block of 512 rows, block of 1024
  columns of the adjacency).  This module fixes what every later module is stated over: the contents of the
  buffers when the kernel's region is entered (three reshapes of the bias vectors come first and touch no
  argument), each window's block of its array at a grid point, the three conditions the body branches on as
  conditions on the grid point (first column block; not the first; the last), and where the output window is
  idle (everywhere but at the last column block, where the finished rows are stored and written back).
-/
import proofs.«164906_g76081050681489_cont_9to1_m_207_10_alg».proof.Proof.Gen.KernelIdeal.Launch
import proofs.«164906_g76081050681489_cont_9to1_m_207_10_alg».proof.Proof.Gen.KernelIdeal.Skeleton
import proofs.«164906_g76081050681489_cont_9to1_m_207_10_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffer contents when the region is entered: the launch contents after the three reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the three reshapes followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No reshape before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
/-- No reshape before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block of its array at grid point `t`, the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: where it is
    not fetched its block index has not moved and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names every array's final contents -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).1 4).trans (((dats 0 c).arrAt_in 4 rfl _).trans ((hA c 4).trans (V_main_arg3 m c))),
      ((h c).1 5).trans (((dats 0 c).arrAt_in 5 rfl _).trans ((hA c 5).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's three conditions, as conditions on the grid point -/

/-- The point is in the first column block (`k = 0`): the accumulator is set. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- The point is in a later column block (`k ≠ 0`): the accumulator is added to. -/
abbrev condLater (i : grid0.Coords) : Prop := (Scalar.cmpi .ne (Scalar.extui (Scalar.cmpi .ne (BitVec.ofNat 32 (i 2).val) 0#32)) 0#32) = 1#1
theorem hcondLater : ∀ t : Fin cfg0.N, condLater (grid0.coords t) ↔ ¬ t.val % 4 = 0 :=
  (by decide +kernel : ∀ t : Fin grid0.N, condLater (grid0.coords t) ↔ ¬ t.val % 4 = 0)

/-- The point is in the last column block (`k = 3`): the rows are finished and stored. -/
abbrev condLast (i : grid0.Coords) : Prop := k0_cond3 i = 1#1
theorem hcondLast : ∀ t : Fin cfg0.N, condLast (grid0.coords t) ↔ t.val % 4 = 3 :=
  (by decide +kernel : ∀ t : Fin grid0.N, condLast (grid0.coords t) ↔ t.val % 4 = 3)

/-! ## Where the output window is idle -/

theorem idleAt8 : ∀ t : Fin cfg0.N, ¬condLast (grid0.coords t) → cfg0.idle 8 (grid0.coords t) = true := by decide +kernel
theorem noFlush8 : ∀ t : Fin cfg0.N, ¬condLast (grid0.coords t) → (cfg0.win 8).flush t = false := by decide +kernel
theorem liveAt8 : ∀ t : Fin cfg0.N, condLast (grid0.coords t) → cfg0.idle 8 (grid0.coords t) = false := by decide +kernel

/-! ## The staging memrefs the body is called with, and the scratch accumulator -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x96 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x96 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x96 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x96 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x32 .f32 := win0_8.stage (cfg0.slots t 8)
abbrev hs0_8 (t : Fin cfg0.N) : (ms0_8 t).IsWhole := hstage0_8 ((cfg0.slots t 8).cast nbuf0_8)
abbrev scM : Memref sig .tc .vmem S512x32 .f32 := Memref.whole cc0_scratch0
abbrev VS : View sig .tc .vmem S512x32 .f32 := scM.view
abbrev VO : View sig .tc .vmem S1x512x32 .f32 := (Memref.whole cc0_stg8_0 : Memref sig .tc .vmem S1x512x32 .f32).view

/-- What the region hands the body besides the windows: the scratch accumulator at some contents, and the
    generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KI.RunFirst.lean ====
/-
  The body at a grid point in the FIRST column block (k = 0): it multiplies the adjacency tile by the
  annotation chunk and stores the product into the scratch accumulator, whatever the accumulator held.
  Nothing else is touched.  The run is stated over the two operand buffers and the accumulator only.
-/
import proofs.«164906_g76081050681489_cont_9to1_m_207_10_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case "first": the pieces the accumulator ends with (one whole store of the tile product), with the proof
    that the body runs to a continuation holding the operands as they were and the accumulator with those
    pieces written. -/
noncomputable def runFirst (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole)
    (hc1 : condFirst i) (hc2 : ¬condLater i) (hc3 : ¬condLast i)
    (x0 : Vec F S1x512x1024 .f32) (x1 : Vec F S1x1024x32 .f32) :
    { LS : List (View.Piece (Elt F) S512x32 .f32) //
      ∀ (E : Set ℕ) (K : PUnit → sProp 𝕄),
        iprop(owns (c : Thread nD τ) arg3 fullShare x0 ∗ owns (c : Thread nD τ) arg4 fullShare x1 ∗ (∃ xs, owns (c : Thread nD τ) arg12 fullShare xs)
            ∗ (iprop(owns (c : Thread nD τ) arg3 fullShare x0 ∗ owns (c : Thread nD τ) arg4 fullShare x1 ∗ (∃ f, arg12.view.loc (c : Thread nD τ) ↦[arg12.view.set]{fullShare} arg12.view.writes (Elt F) f LS)) -∗ K ⟨⟩))
          ⊢ wp frame (wpE (defs₀ (F := F)) Variants.none c none) E (cc0__ggc_body i arg3 harg3 arg4 harg4 arg5 harg5 arg6 harg6 arg7 harg7 arg8 harg8 arg9 harg9 arg10 harg10 arg11 harg11 arg12 harg12) K } := by
  refine ⟨?_, fun E K => ?run⟩
  case run =>
    simp only [cc0__ggc_body_eq_skeleton]; unfold cc0__ggc_body_skel
    unfold owns
    iintro ⟨⟨%f0, %hf0, H0⟩, ⟨%f1, %hf1, H1⟩, ⟨%xs, %fs, %hfs, HS⟩, Hk⟩
    obtain rfl := harg3.eq_unread hf0; obtain rfl := harg4.eq_unread hf1; obtain rfl := harg12.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.KernelIdeal.Hand

end
-- ==== Proof.KI.RunLater.lean ====
/-
  The body at a grid point in a LATER column block that is not the last (k = 1, 2): it adds the product of
  the adjacency tile and the annotation chunk to the scratch accumulator.  Nothing else is touched.
-/
import proofs.«164906_g76081050681489_cont_9to1_m_207_10_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case "later": the pieces the accumulator ends with (one whole store of accumulator + tile product), with the
    proof that the body runs to a continuation holding the operands as they were and the accumulator, found at
    `xs`, with those pieces written. -/
noncomputable def runLater (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole)
    (hc1 : ¬condFirst i) (hc2 : condLater i) (hc3 : ¬condLast i)
    (x0 : Vec F S1x512x1024 .f32) (x1 : Vec F S1x1024x32 .f32) (xs : Vec F S512x32 .f32) :
    { LS : List (View.Piece (Elt F) S512x32 .f32) //
      ∀ (E : Set ℕ) (K : PUnit → sProp 𝕄),
        iprop(owns (c : Thread nD τ) arg3 fullShare x0 ∗ owns (c : Thread nD τ) arg4 fullShare x1 ∗ owns (c : Thread nD τ) arg12 fullShare xs
            ∗ (iprop(owns (c : Thread nD τ) arg3 fullShare x0 ∗ owns (c : Thread nD τ) arg4 fullShare x1 ∗ (∃ f, arg12.view.loc (c : Thread nD τ) ↦[arg12.view.set]{fullShare} arg12.view.writes (Elt F) f LS)) -∗ K ⟨⟩))
          ⊢ wp frame (wpE (defs₀ (F := F)) Variants.none c none) E (cc0__ggc_body i arg3 harg3 arg4 harg4 arg5 harg5 arg6 harg6 arg7 harg7 arg8 harg8 arg9 harg9 arg10 harg10 arg11 harg11 arg12 harg12) K } := by
  refine ⟨?_, fun E K => ?run⟩
  case run =>
    simp only [cc0__ggc_body_eq_skeleton]; unfold cc0__ggc_body_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg12.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.KernelIdeal.Hand

end
-- ==== Proof.KI.RunLast.lean ====
/-
  The body at a grid point in the LAST column block (k = 3): it adds the last tile product to the scratch
  accumulator, then reads the accumulator back, adds the convolution bias, applies the GRU step against the
  hidden-state block with the two weight matrices and the two bias rows, and stores the 512 finished rows into
  the output window's buffer.
-/
import proofs.«164906_g76081050681489_cont_9to1_m_207_10_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case "last": the pieces the output buffer and the accumulator end with, with the proof that the body runs
    to a continuation holding every input buffer as it was, the output buffer (found at anything) and the
    accumulator (found at `xs`) with those pieces written. -/
noncomputable def runLast (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole)
    (hc1 : ¬condFirst i) (hc2 : condLater i) (hc3 : condLast i)
    (x0 : Vec F S1x512x1024 .f32) (x1 : Vec F S1x1024x32 .f32) (x2 : Vec F S1x512x32 .f32) (x3 : Vec F S1x32 .f32)
    (x4 : Vec F S32x96 .f32) (x5 : Vec F S32x96 .f32) (x6 : Vec F S1x96 .f32) (x7 : Vec F S1x96 .f32) (xs : Vec F S512x32 .f32) :
    Σ' (L8 : List (View.Piece (Elt F) S1x512x32 .f32)), { LS : List (View.Piece (Elt F) S512x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare x7
            ∗ (∃ x8, owns (c : Thread nD τ) arg11 fullShare x8) ∗ owns (c : Thread nD τ) arg12 fullShare xs
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4 ∗ owns (c : Thread nD τ) arg8 fullShare x5
                ∗ owns (c : Thread nD τ) arg9 fullShare x6 ∗ owns (c : Thread nD τ) arg10 fullShare x7
                ∗ (∃ f, arg11.view.loc (c : Thread nD τ) ↦[arg11.view.set]{fullShare} arg11.view.writes (Elt F) f L8)
                ∗ (∃ f, arg12.view.loc (c : Thread nD τ) ↦[arg12.view.set]{fullShare} arg12.view.writes (Elt F) f LS)) -∗ K ⟨⟩))
          ⊢ wp frame (wpE (defs₀ (F := F)) Variants.none c none) E (cc0__ggc_body i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__ggc_body_eq_skeleton]; unfold cc0__ggc_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%x8, %f8, %hf8, H8⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7; obtain rfl := harg11.eq_unread hf8
    obtain rfl := harg12.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; iexact H8
    iexists _; iexact HS

end Cert.KernelIdeal.Hand

end
-- ==== Proof.KI.Pieces.lean ====
/-
  What each case of the body leaves behind, as values.  In every case the accumulator ends at ONE whole
  store: the tile product (first column block) or the accumulator it found plus the tile product (later
  blocks).  In the last column block the output buffer ends at one whole store of the GRU step applied to
  that final accumulator, the hidden-state block and the weights.
-/
import proofs.«164906_g76081050681489_cont_9to1_m_207_10_alg».proof.Proof.KI.RunFirst
import proofs.«164906_g76081050681489_cont_9to1_m_207_10_alg».proof.Proof.KI.RunLater
import proofs.«164906_g76081050681489_cont_9to1_m_207_10_alg».proof.Proof.KI.RunLast
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; fin_cases a <;> rfl
theorem hz3 : (![0, 0, 0] : Fin 3 → Nat) = fun _ => 0 := by funext a; fin_cases a <;> rfl

theorem coverFirst (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : condFirst i) (hc2 : ¬condLater i) (hc3 : ¬condLast i)
    (x0 : Vec F S1x512x1024 .f32) (x1 : Vec F S1x1024x32 .f32) (y : S512x32.Idx) :
    ∃ pc ∈ (runFirst c i arg3 harg3 arg4 harg4 arg5 harg5 arg6 harg6 arg7 harg7 arg8 harg8 arg9 harg9 arg10 harg10 arg11 harg11 arg12 harg12 hc1 hc2 hc3 x0 x1).1, y ∈ pc.1.set :=
  View.cover_of_tiledL (runFirst c i arg3 harg3 arg4 harg4 arg5 harg5 arg6 harg6 arg7 harg7 arg8 harg8 arg9 harg9 arg10 harg10 arg11 harg11 arg12 harg12 hc1 hc2 hc3 x0 x1).1 S512x32.size (by sl_kernel_rfl) y

/-- After the first column block the accumulator holds the tile product. -/
theorem accFirst_eq (v : View sig .tc .vmem S512x32 .f32) (f : v.ty.Contents (Elt F)) (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : condFirst i) (hc2 : ¬condLater i) (hc3 : ¬condLast i)
    (x0 : Vec F S1x512x1024 .f32) (x1 : Vec F S1x1024x32 .f32) :
    v.read (Elt F) (v.writes (Elt F) f (runFirst c i arg3 harg3 arg4 harg4 arg5 harg5 arg6 harg6 arg7 harg7 arg8 harg8 arg9 harg9 arg10 harg10 arg11 harg11 arg12 harg12 hc1 hc2 hc3 x0 x1).1) = k0_pay2 x0 x1 := by
  rw [View.read_writes_eq_canon _ _ _ (coverFirst c i arg3 harg3 arg4 harg4 arg5 harg5 arg6 harg6 arg7 harg7 arg8 harg8 arg9 harg9 arg10 harg10 arg11 harg11 arg12 harg12 hc1 hc2 hc3 x0 x1)]
  unfold runFirst
  dsimp only
  rw [View.canon_unit_zero (S := S512x32) hz2]
  simp only [View.readAt_eq_ld, harg3.read_unread, harg4.read_unread, View.ld_unit_zero (S := S1x512x1024) hz3, View.ld_unit_zero (S := S1x1024x32) hz3]

theorem coverLater (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : ¬condFirst i) (hc2 : condLater i) (hc3 : ¬condLast i)
    (x0 : Vec F S1x512x1024 .f32) (x1 : Vec F S1x1024x32 .f32) (xs : Vec F S512x32 .f32) (y : S512x32.Idx) :
    ∃ pc ∈ (runLater c i arg3 harg3 arg4 harg4 arg5 harg5 arg6 harg6 arg7 harg7 arg8 harg8 arg9 harg9 arg10 harg10 arg11 harg11 arg12 harg12 hc1 hc2 hc3 x0 x1 xs).1, y ∈ pc.1.set :=
  View.cover_of_tiledL (runLater c i arg3 harg3 arg4 harg4 arg5 harg5 arg6 harg6 arg7 harg7 arg8 harg8 arg9 harg9 arg10 harg10 arg11 harg11 arg12 harg12 hc1 hc2 hc3 x0 x1 xs).1 S512x32.size (by sl_kernel_rfl) y

/-- After a later column block the accumulator holds what it held plus the tile product. -/
theorem accLater_eq (v : View sig .tc .vmem S512x32 .f32) (f : v.ty.Contents (Elt F)) (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : ¬condFirst i) (hc2 : condLater i) (hc3 : ¬condLast i)
    (x0 : Vec F S1x512x1024 .f32) (x1 : Vec F S1x1024x32 .f32) (xs : Vec F S512x32 .f32) :
    v.read (Elt F) (v.writes (Elt F) f (runLater c i arg3 harg3 arg4 harg4 arg5 harg5 arg6 harg6 arg7 harg7 arg8 harg8 arg9 harg9 arg10 harg10 arg11 harg11 arg12 harg12 hc1 hc2 hc3 x0 x1 xs).1) = k0_pay3 x0 x1 xs := by
  rw [View.read_writes_eq_canon _ _ _ (coverLater c i arg3 harg3 arg4 harg4 arg5 harg5 arg6 harg6 arg7 harg7 arg8 harg8 arg9 harg9 arg10 harg10 arg11 harg11 arg12 harg12 hc1 hc2 hc3 x0 x1 xs)]
  unfold runLater
  dsimp only
  rw [View.canon_unit_zero (S := S512x32) hz2]
  simp only [View.readAt_eq_ld, harg3.read_unread, harg4.read_unread, harg12.read_unread, View.ld_unit_zero (S := S1x512x1024) hz3, View.ld_unit_zero (S := S1x1024x32) hz3, View.ld_unit_zero (S := S512x32) hz2]

theorem coverSLast (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : ¬condFirst i) (hc2 : condLater i) (hc3 : condLast i)
    (x0 : Vec F S1x512x1024 .f32) (x1 : Vec F S1x1024x32 .f32) (x2 : Vec F S1x512x32 .f32) (x3 : Vec F S1x32 .f32)
    (x4 : Vec F S32x96 .f32) (x5 : Vec F S32x96 .f32) (x6 : Vec F S1x96 .f32) (x7 : Vec F S1x96 .f32) (xs : Vec F S512x32 .f32) (y : S512x32.Idx) :
    ∃ pc ∈ (runLast c i arg3 harg3 arg4 harg4 arg5 harg5 arg6 harg6 arg7 harg7 arg8 harg8 arg9 harg9 arg10 harg10 arg11 harg11 arg12 harg12 hc1 hc2 hc3 x0 x1 x2 x3 x4 x5 x6 x7 xs).2.1, y ∈ pc.1.set :=
  View.cover_of_tiledL (runLast c i arg3 harg3 arg4 harg4 arg5 harg5 arg6 harg6 arg7 harg7 arg8 harg8 arg9 harg9 arg10 harg10 arg11 harg11 arg12 harg12 hc1 hc2 hc3 x0 x1 x2 x3 x4 x5 x6 x7 xs).2.1 S512x32.size (by sl_kernel_rfl) y

theorem cover8Last (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : ¬condFirst i) (hc2 : condLater i) (hc3 : condLast i)
    (x0 : Vec F S1x512x1024 .f32) (x1 : Vec F S1x1024x32 .f32) (x2 : Vec F S1x512x32 .f32) (x3 : Vec F S1x32 .f32)
    (x4 : Vec F S32x96 .f32) (x5 : Vec F S32x96 .f32) (x6 : Vec F S1x96 .f32) (x7 : Vec F S1x96 .f32) (xs : Vec F S512x32 .f32) (y : S1x512x32.Idx) :
    ∃ pc ∈ (runLast c i arg3 harg3 arg4 harg4 arg5 harg5 arg6 harg6 arg7 harg7 arg8 harg8 arg9 harg9 arg10 harg10 arg11 harg11 arg12 harg12 hc1 hc2 hc3 x0 x1 x2 x3 x4 x5 x6 x7 xs).1, y ∈ pc.1.set :=
  View.cover_of_tiledL (runLast c i arg3 harg3 arg4 harg4 arg5 harg5 arg6 harg6 arg7 harg7 arg8 harg8 arg9 harg9 arg10 harg10 arg11 harg11 arg12 harg12 hc1 hc2 hc3 x0 x1 x2 x3 x4 x5 x6 x7 xs).1 S1x512x32.size (by sl_kernel_rfl) y

/-- After the last column block the accumulator holds what it held plus the last tile product. -/
theorem accLast_eq (v : View sig .tc .vmem S512x32 .f32) (f : v.ty.Contents (Elt F)) (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : ¬condFirst i) (hc2 : condLater i) (hc3 : condLast i)
    (x0 : Vec F S1x512x1024 .f32) (x1 : Vec F S1x1024x32 .f32) (x2 : Vec F S1x512x32 .f32) (x3 : Vec F S1x32 .f32)
    (x4 : Vec F S32x96 .f32) (x5 : Vec F S32x96 .f32) (x6 : Vec F S1x96 .f32) (x7 : Vec F S1x96 .f32) (xs : Vec F S512x32 .f32) :
    v.read (Elt F) (v.writes (Elt F) f (runLast c i arg3 harg3 arg4 harg4 arg5 harg5 arg6 harg6 arg7 harg7 arg8 harg8 arg9 harg9 arg10 harg10 arg11 harg11 arg12 harg12 hc1 hc2 hc3 x0 x1 x2 x3 x4 x5 x6 x7 xs).2.1) = k0_pay3 x0 x1 xs := by
  rw [View.read_writes_eq_canon _ _ _ (coverSLast c i arg3 harg3 arg4 harg4 arg5 harg5 arg6 harg6 arg7 harg7 arg8 harg8 arg9 harg9 arg10 harg10 arg11 harg11 arg12 harg12 hc1 hc2 hc3 x0 x1 x2 x3 x4 x5 x6 x7 xs)]
  unfold runLast
  dsimp only
  sl_unfold_run_names
  first
  | (rw [View.canon_unit_zero (S := S512x32) hz2]
     simp only [View.readAt_eq_ld, harg3.read_unread, harg4.read_unread, harg12.read_unread, View.ld_unit_zero (S := S1x512x1024) hz3, View.ld_unit_zero (S := S1x1024x32) hz3, View.ld_unit_zero (S := S512x32) hz2])
  | (trace_state; fail "accLast")

/-- and the output buffer holds the GRU step of that final accumulator, the hidden-state block, the bias row,
    the two weight matrices and the two bias rows. -/
theorem outLast_eq (v : View sig .tc .vmem S1x512x32 .f32) (f : v.ty.Contents (Elt F)) (c : Dev nD) (i : grid0.Coords) (arg3 : Memref sig .tc .vmem S1x512x1024 .f32) (harg3 : arg3.IsWhole) (arg4 : Memref sig .tc .vmem S1x1024x32 .f32) (harg4 : arg4.IsWhole) (arg5 : Memref sig .tc .vmem S1x512x32 .f32) (harg5 : arg5.IsWhole) (arg6 : Memref sig .tc .vmem S1x32 .f32) (harg6 : arg6.IsWhole) (arg7 : Memref sig .tc .vmem S32x96 .f32) (harg7 : arg7.IsWhole) (arg8 : Memref sig .tc .vmem S32x96 .f32) (harg8 : arg8.IsWhole) (arg9 : Memref sig .tc .vmem S1x96 .f32) (harg9 : arg9.IsWhole) (arg10 : Memref sig .tc .vmem S1x96 .f32) (harg10 : arg10.IsWhole) (arg11 : Memref sig .tc .vmem S1x512x32 .f32) (harg11 : arg11.IsWhole) (arg12 : Memref sig .tc .vmem S512x32 .f32) (harg12 : arg12.IsWhole) (hc1 : ¬condFirst i) (hc2 : condLater i) (hc3 : condLast i)
    (x0 : Vec F S1x512x1024 .f32) (x1 : Vec F S1x1024x32 .f32) (x2 : Vec F S1x512x32 .f32) (x3 : Vec F S1x32 .f32)
    (x4 : Vec F S32x96 .f32) (x5 : Vec F S32x96 .f32) (x6 : Vec F S1x96 .f32) (x7 : Vec F S1x96 .f32) (xs : Vec F S512x32 .f32) :
    v.read (Elt F) (v.writes (Elt F) f (runLast c i arg3 harg3 arg4 harg4 arg5 harg5 arg6 harg6 arg7 harg7 arg8 harg8 arg9 harg9 arg10 harg10 arg11 harg11 arg12 harg12 hc1 hc2 hc3 x0 x1 x2 x3 x4 x5 x6 x7 xs).1) = k0_pay4 (k0_pay5 x2 (k0_pay3 x0 x1 xs) x3 x4 x6 x5 x7) := by
  rw [View.read_writes_eq_canon _ _ _ (cover8Last c i arg3 harg3 arg4 harg4 arg5 harg5 arg6 harg6 arg7 harg7 arg8 harg8 arg9 harg9 arg10 harg10 arg11 harg11 arg12 harg12 hc1 hc2 hc3 x0 x1 x2 x3 x4 x5 x6 x7 xs)]
  unfold runLast
  dsimp only
  rw [View.canon_unit_zero (S := S1x512x32) hz3]
  sl_unfold_run_names
  first
  | (rw [View.readCov_unit_zero (S := S512x32) arg12.view hz2]
     simp only [View.readAt_eq_ld, harg3.read_unread, harg4.read_unread, harg5.read_unread, harg6.read_unread, harg7.read_unread, harg8.read_unread, harg9.read_unread, harg10.read_unread, harg12.read_unread,
       View.ld_unit_zero (S := S1x512x1024) hz3, View.ld_unit_zero (S := S1x1024x32) hz3, View.ld_unit_zero (S := S512x32) hz2, View.ld_unit_zero (S := S1x512x32) hz3,
       View.ld_unit_zero (S := S1x32) hz2, View.ld_unit_zero (S := S32x96) hz2, View.ld_unit_zero (S := S1x96) hz2])
  | (trace_state; fail "outLast")

end Cert.KernelIdeal.Hand

end
-- ==== Proof.KI.Frame.lean ====
/-
  The proof data of the pipelined kernel and its body obligation.
  Grid point number t is (batch, row block, column block) with column block k = t mod 4.  The scratch
  accumulator after point t holds the partial contraction over column blocks 0..k of the adjacency tile rows
  against the annotation chunks:  acc(t) = tile(t)·chunk(t) when k = 0, and acc(t-1) + tile(t)·chunk(t)
  otherwise.  The output window's buffer is stored only when k = 3, with the GRU step of acc(t); elsewhere the
  window is idle.  Between points the invariant holds the accumulator at acc(t-1) (at anything before the
  first point).  The annotation array is read through two windows (the chunk and the hidden-state block); each
  holds half of its share.
-/
import proofs.«164906_g76081050681489_cont_9to1_m_207_10_alg».proof.Proof.KI.Pieces
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator after each point, and the rows stored at the last column block -/

def accAt (c : Dev nD) : (n : ℕ) → n < cfg0.N → Vec F S512x32 .f32
  | 0, hn => k0_pay2 (iblk m c 0 ⟨0, hn⟩) (iblk m c 1 ⟨0, hn⟩)
  | n + 1, hn =>
    if (n + 1) % 4 = 0 then k0_pay2 (iblk m c 0 ⟨n + 1, hn⟩) (iblk m c 1 ⟨n + 1, hn⟩)
    else k0_pay3 (iblk m c 0 ⟨n + 1, hn⟩) (iblk m c 1 ⟨n + 1, hn⟩) (accAt c n (Nat.lt_of_succ_lt hn))

theorem accAt_first (c : Dev nD) (t : Fin cfg0.N) (h0 : t.val % 4 = 0) :
    accAt m c t.val t.isLt = k0_pay2 (iblk m c 0 t) (iblk m c 1 t) := by
  obtain ⟨n, hn⟩ := t
  cases n with
  | zero => rfl
  | succ n => exact if_pos h0

theorem accAt_later (c : Dev nD) (t : Fin cfg0.N) (h0 : ¬ t.val % 4 = 0) :
    accAt m c t.val t.isLt = k0_pay3 (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact if_neg h0

/-- The rows the last column block stores: the GRU step of the finished accumulator. -/
def outAt (c : Dev nD) (t : Fin cfg0.N) : FVec F S1x512x32 .f32 :=
  k0_pay4 (k0_pay5 (iblk m c 2 t) (accAt m c t.val t.isLt) (iblk m c 3 t) (iblk m c 4 t) (iblk m c 6 t) (iblk m c 5 t) (iblk m c 7 t))

/-! ## The invariant between points -/

def PhiS (c : Dev nD) : (n : ℕ) → n ≤ cfg0.N → sProp 𝕄
  | 0, _ => Pipeline.scopedRest spec0 c
  | n + 1, hn => owns (c : Thread nD τ) scM fullShare (accAt m c n hn)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The scoped buffers that are no staging buffer: the accumulator, at some contents. -/
theorem scoped_eq (c : Dev nD) :
    (Pipeline.scopedRest spec0 c : sProp 𝕄) = iprop(∃ d, owns (c : Thread nD τ) scM fullShare d) := by
  rw [scopedRest0_eq]; simp only [scM, owns_whole]; try rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem liveIn0 : ∀ t : Fin cfg0.N, cfg0.idle 0 (grid0.coords t) = false := by decide +kernel
theorem leaves0_0 (c : Dev nD) (t : Fin cfg0.N) : (dats m 0 c).leavesExact 0 t = owns (c : Thread nD τ) (ms0_0 t) fullShare (iblk m c 0 t) := by
  unfold Dat.leavesExact; rw [liveIn0 t, after0_0]
theorem liveIn1 : ∀ t : Fin cfg0.N, cfg0.idle 1 (grid0.coords t) = false := by decide +kernel
theorem leaves0_1 (c : Dev nD) (t : Fin cfg0.N) : (dats m 0 c).leavesExact 1 t = owns (c : Thread nD τ) (ms0_1 t) fullShare (iblk m c 1 t) := by
  unfold Dat.leavesExact; rw [liveIn1 t, after0_1]
theorem liveIn2 : ∀ t : Fin cfg0.N, cfg0.idle 2 (grid0.coords t) = false := by decide +kernel
theorem leaves0_2 (c : Dev nD) (t : Fin cfg0.N) : (dats m 0 c).leavesExact 2 t = owns (c : Thread nD τ) (ms0_2 t) fullShare (iblk m c 2 t) := by
  unfold Dat.leavesExact; rw [liveIn2 t, after0_2]
theorem liveIn3 : ∀ t : Fin cfg0.N, cfg0.idle 3 (grid0.coords t) = false := by decide +kernel
theorem leaves0_3 (c : Dev nD) (t : Fin cfg0.N) : (dats m 0 c).leavesExact 3 t = owns (c : Thread nD τ) (ms0_3 t) fullShare (iblk m c 3 t) := by
  unfold Dat.leavesExact; rw [liveIn3 t, after0_3]
theorem liveIn4 : ∀ t : Fin cfg0.N, cfg0.idle 4 (grid0.coords t) = false := by decide +kernel
theorem leaves0_4 (c : Dev nD) (t : Fin cfg0.N) : (dats m 0 c).leavesExact 4 t = owns (c : Thread nD τ) (ms0_4 t) fullShare (iblk m c 4 t) := by
  unfold Dat.leavesExact; rw [liveIn4 t, after0_4]
theorem liveIn5 : ∀ t : Fin cfg0.N, cfg0.idle 5 (grid0.coords t) = false := by decide +kernel
theorem leaves0_5 (c : Dev nD) (t : Fin cfg0.N) : (dats m 0 c).leavesExact 5 t = owns (c : Thread nD τ) (ms0_5 t) fullShare (iblk m c 5 t) := by
  unfold Dat.leavesExact; rw [liveIn5 t, after0_5]
theorem liveIn6 : ∀ t : Fin cfg0.N, cfg0.idle 6 (grid0.coords t) = false := by decide +kernel
theorem leaves0_6 (c : Dev nD) (t : Fin cfg0.N) : (dats m 0 c).leavesExact 6 t = owns (c : Thread nD τ) (ms0_6 t) fullShare (iblk m c 6 t) := by
  unfold Dat.leavesExact; rw [liveIn6 t, after0_6]
theorem liveIn7 : ∀ t : Fin cfg0.N, cfg0.idle 7 (grid0.coords t) = false := by decide +kernel
theorem leaves0_7 (c : Dev nD) (t : Fin cfg0.N) : (dats m 0 c).leavesExact 7 t = owns (c : Thread nD τ) (ms0_7 t) fullShare (iblk m c 7 t) := by
  unfold Dat.leavesExact; rw [liveIn7 t, after0_7]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- Before any point the invariant yields the accumulator at some contents. -/
theorem Phi_some (c : Dev nD) (t : Fin cfg0.N) :
    (dats m 0 c).Φ t.castSucc ⊢ iprop(∃ xs, owns (c : Thread nD τ) scM fullShare xs) := by
  rw [PhiS_castSucc m c t]
  by_cases hz : t.val = 0
  · rw [PhiS_zero m c _ _ hz, scoped_eq]
  · rw [PhiS_pos m c _ _ hz]; iintro HS; iexists _; iexact HS

set_option maxHeartbeats 4800000 in
/-- The body at any point: which of the three cases applies is decided by t mod 4; the accumulator is handed
    over at what the point before left (at anything at the first point) and taken back at this point's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  have hN : t.val < 64 := lt_of_lt_of_eq t.isLt (show cfg0.N = 64 from N_0)
  by_cases h0 : t.val % 4 = 0
  · have hF : condFirst (grid0.coords t) := (hcondFirst t).mpr h0
    have hnL : ¬condLater (grid0.coords t) := fun h => (hcondLater t).mp h h0
    have hnZ : ¬condLast (grid0.coords t) := fun h => by have := (hcondLast t).mp h; omega
    rw [Dat.leavesExact_idle (dats m 0 c) 8 t (idleAt8 t hnZ) (noFlush8 t hnZ)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HS := (Phi_some m c t) $$ HΦ
    iapply ((runFirst c (grid0.coords t) _ _ _ _ _ _ _ _ _ _ _ _ _ _ _ _ _ _ _ _ hF hnL hnZ (iblk m c 0 t) (iblk m c 1 t)).2 Set.univ _)
    isplitl [H0]; · iexact H0
    isplitl [H1]; · iexact H1
    isplitl [HS]; · iexact HS
    iintro ⟨H0, H1, ⟨%f, HS⟩⟩
    isplitl [HS]
    · unfold owns; iexists _; isplitr
      swap; · iexact HS
      ipureintro; exact (accFirst_eq _ _ c (grid0.coords t) _ _ _ _ _ _ _ _ _ _ _ _ _ _ _ _ _ _ _ _ hF hnL hnZ _ _).trans (accAt_first m c t h0).symm
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hnF : ¬condFirst (grid0.coords t) := fun h => h0 ((hcondFirst t).mp h)
    have hL : condLater (grid0.coords t) := (hcondLater t).mpr h0
    have hz : t.val ≠ 0 := fun e => h0 (by rw [e])
    by_cases h3 : t.val % 4 = 3
    · have hZ : condLast (grid0.coords t) := (hcondLast t).mpr h3
      rw [show (dats m 0 c).leavesExact 8 t = owns (c : Thread nD τ) (ms0_8 t) fullShare (outAt m c t) from by
        unfold Dat.leavesExact; rw [liveAt8 t hZ, after0_8]]
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast c (grid0.coords t) _ _ _ _ _ _ _ _ _ _ _ _ _ _ _ _ _ _ _ _ hnF hL hZ (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%f8, H8⟩, ⟨%fs, HS⟩⟩
      isplitl [HS]
      · unfold owns; iexists _; isplitr
        swap; · iexact HS
        ipureintro; exact (accLast_eq _ _ c (grid0.coords t) _ _ _ _ _ _ _ _ _ _ _ _ _ _ _ _ _ _ _ _ hnF hL hZ _ _ _ _ _ _ _ _ _).trans (accAt_later m c t h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact (outLast_eq _ _ c (grid0.coords t) _ _ _ _ _ _ _ _ _ _ _ _ _ _ _ _ _ _ _ _ hnF hL hZ _ _ _ _ _ _ _ _ _).trans (by unfold outAt; rw [accAt_later m c t h0])
    · have hnZ : ¬condLast (grid0.coords t) := fun h => h3 ((hcondLast t).mp h)
      rw [Dat.leavesExact_idle (dats m 0 c) 8 t (idleAt8 t hnZ) (noFlush8 t hnZ)]
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLater c (grid0.coords t) _ _ _ _ _ _ _ _ _ _ _ _ _ _ _ _ _ _ _ _ hnF hL hnZ (iblk m c 0 t) (iblk m c 1 t) _).2 Set.univ _)
      isplitl [H0]; · iexact H0
      isplitl [H1]; · iexact H1
      isplitl [HS]; · iexact HS
      iintro ⟨H0, H1, ⟨%f, HS⟩⟩
      isplitl [HS]
      · unfold owns; iexists _; isplitr
        swap; · iexact HS
        ipureintro; exact (accLater_eq _ _ c (grid0.coords t) _ _ _ _ _ _ _ _ _ _ _ _ _ _ _ _ _ _ _ _ hnF hL hnZ _ _ _).trans (accAt_later m c t h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch: the arrays dealt to the windows, the invariant in and out -/

theorem arr_pt (c : Dev nD) (w : Fin cfg0.W) (q : PosShare TreeShare) (f : Buf (Elt F) ((cfg0.win w).arr.view.loc (c.tc : Thread nD τ))) :
    ((cfg0.win w).arr.view.loc (c.tc : Thread nD τ) ↦[(cfg0.win w).arr.view.set]{q} f : sProp 𝕄)
      = (((c.tc : Thread nD τ).loc (Pipeline.arrRef spec0 w)) ↦{q} f) := by
  rw [(arr_whole0 w).set_eq_univ]

/-- The buffers behind the nine windows are eight: the annotation array serves the chunk window and the
    hidden-state window, each at half of its share. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  rw [bigSep_eq_bigSepL_of_eq [main_arg0, main_arg1, main_call0_v0, main_arg3, main_arg4, main_call0_v1, main_call0_v2, main_v0] (by decide) (by decide)]
  dsimp only
  rw [arr_pt c 0, arr_pt c 1, arr_pt c 2, arr_pt c 3, arr_pt c 4, arr_pt c 5, arr_pt c 6, arr_pt c 7, arr_pt c 8]
  rw [show bigSepL [main_arg0, main_arg1, main_call0_v0, main_arg3, main_arg4, main_call0_v1, main_call0_v2, main_v0]
        (fun b => (((c.tc : Thread nD τ).loc b) ↦{fullShare} V m c b : sProp 𝕄))
      = iprop((((c.tc : Thread nD τ).loc main_arg0) ↦{fullShare} V m c main_arg0) ∗ (((c.tc : Thread nD τ).loc main_arg1) ↦{fullShare} V m c main_arg1) ∗ (((c.tc : Thread nD τ).loc main_call0_v0) ↦{fullShare} V m c main_call0_v0) ∗ (((c.tc : Thread nD τ).loc main_arg3) ↦{fullShare} V m c main_arg3) ∗ (((c.tc : Thread nD τ).loc main_arg4) ↦{fullShare} V m c main_arg4) ∗ (((c.tc : Thread nD τ).loc main_call0_v1) ↦{fullShare} V m c main_call0_v1) ∗ (((c.tc : Thread nD τ).loc main_call0_v2) ↦{fullShare} V m c main_call0_v2) ∗ (((c.tc : Thread nD τ).loc main_v0) ↦{fullShare} V m c main_v0)) from rfl]
  iintro ⟨H0, H1, H3, H4, H5, H6, H7, H8⟩
  ihave H1 := (pointsTo_share (PosShare.mem_left_op_right fullShare)).1 $$ H1
  icases H1 with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem hin (c : Dev nD) : iprop(emp ∗ Pipeline.scopedRest spec0 c) ⊢ (dats m 0 c).Φ 0 := by
  rw [show (dats m 0 c).Φ 0 = Pipeline.scopedRest spec0 c from rfl]
  iintro ⟨-, H⟩; iexact H

theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro HS; isplitr; · iempintro
  iexists _; iexact HS

/-! ## The run and the frame -/

set_option backward.isDefEq.respectTransparency.types false in
/-- Every weakly fair execution terminates; every array of the pipeline ends at what the write-backs leave and
    every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨fun w => (h c).1 w, (h c).2⟩)

/-- info: 'Cert.KernelIdeal.Hand.run_main' depends on axioms: [propext, Classical.choice, Quot.sound] -/
#guard_msgs in #print axioms run_main

/-- The frame: the program runs to the end and leaves its seven argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.KI.ArgsKept.lean ====
/-
  From the run's post (every pipeline array at what the write-backs leave, every bypassing buffer as the region
  found it) to the seven argument arrays unchanged, as a statement about one final state.
-/
import proofs.«164906_g76081050681489_cont_9to1_m_207_10_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c))),
   ((h c).2 main_arg2 (Pipeline.mem_restRefs_of main_arg2 (by decide) (by decide))).trans (V_main_arg2 m c),
   ((h c).1 4).trans (((dats 0 c).arrAt_in 4 rfl _).trans ((hA c 4).trans (V_main_arg3 m c))),
   ((h c).1 5).trans (((dats 0 c).arrAt_in 5 rfl _).trans ((hA c 5).trans (V_main_arg4 m c))),
   ((h c).2 main_arg5 (Pipeline.mem_restRefs_of main_arg5 (by decide) (by decide))).trans (V_main_arg5 m c),
   ((h c).2 main_arg6 (Pipeline.mem_restRefs_of main_arg6 (by decide) (by decide))).trans (V_main_arg6 m c)⟩

end Cert.KernelIdeal.Hand

end
-- ==== Proof.Spec.lean ====
/-
  What the gated graph convolution computes, as one function of the argument arrays over the extended reals.
  For graph `b` and node `n` the aggregated input is  x k = (∑ l, adj[b,n,l] · ann[b,l,k]) + bias[k]  and the
  hidden state is  h k = ann[b,n,k].  One GRU step then gives, channel by channel,
    z = σ(xW[c] + hU[c]),   r = σ(xW[32+c] + hU[32+c]),   h̃ = tanh(xW[64+c] + r · hU[64+c]),
    out = z · h c + (1 − z) · h̃
  where  xW j = (∑ k, x k · W[k,j]) + b_in j  and  hU j = (∑ k, h k · U[k,j]) + b_rec j.
-/
import Idealize.ShloMosaic.PureOps.Ideal
import Idealize.ShloMosaic.Lib.ValueIdx

noncomputable section

namespace Cert.GruSpec

open Idealize.ShloMosaic Idealize.ShloMosaic.ValueIdx

/-- The float literal one, as both programs spell it. -/
def one : EReal := Ideal.ofBits .f32 0x3F800000#32

/-- A gate's pre-activation: a row times a [32, 96] matrix, plus a bias. -/
def pre (x : Fin 32 → EReal) (M : (⟨2, ![32, 96]⟩ : Shape).Idx → EReal) (bv : Fin 96 → EReal) (j : Fin 96) : EReal :=
  (∑ k : Fin 32, x k * M (ix2 k j)) + bv j

/-- One GRU step on a row: input row `x`, hidden row `h`, at channel `c`. -/
def cell (x h : Fin 32 → EReal) (W U : (⟨2, ![32, 96]⟩ : Shape).Idx → EReal) (bin brec : Fin 96 → EReal) (c : Fin 32) : EReal :=
  let z := Ideal.logistic (pre x W bin ⟨c.val, by omega⟩ + pre h U brec ⟨c.val, by omega⟩)
  let r := Ideal.logistic (pre x W bin ⟨32 + c.val, by omega⟩ + pre h U brec ⟨32 + c.val, by omega⟩)
  let hh := Ideal.tanh (pre x W bin ⟨64 + c.val, by omega⟩ + r * pre h U brec ⟨64 + c.val, by omega⟩)
  z * h c + (one - z) * hh

/-- The aggregated input row of node `n` of graph `b`. -/
def agg (adj : (⟨3, ![2, 4096, 4096]⟩ : Shape).Idx → EReal) (ann : (⟨3, ![2, 4096, 32]⟩ : Shape).Idx → EReal)
    (bias : (⟨3, ![1, 1, 32]⟩ : Shape).Idx → EReal) (b : Fin 2) (n : Fin 4096) (k : Fin 32) : EReal :=
  (∑ l : Fin 4096, adj (ix3 b n l) * ann (ix3 b l k)) + bias (ix3 (0 : Fin 1) (0 : Fin 1) k)

/-- The result at graph `b`, node `n`, channel `c`. -/
def G' (adj : (⟨3, ![2, 4096, 4096]⟩ : Shape).Idx → EReal) (ann : (⟨3, ![2, 4096, 32]⟩ : Shape).Idx → EReal)
    (bias : (⟨3, ![1, 1, 32]⟩ : Shape).Idx → EReal) (W U : (⟨2, ![32, 96]⟩ : Shape).Idx → EReal)
    (bin brec : (⟨1, ![96]⟩ : Shape).Idx → EReal) (b : Fin 2) (n : Fin 4096) (c : Fin 32) : EReal :=
  cell (agg adj ann bias b n) (fun k => ann (ix3 b n k)) W U (fun j => bin (ix1 j)) (fun j => brec (ix1 j)) c

/-- The whole result array. -/
def G (adj : (⟨3, ![2, 4096, 4096]⟩ : Shape).Idx → EReal) (ann : (⟨3, ![2, 4096, 32]⟩ : Shape).Idx → EReal)
    (bias : (⟨3, ![1, 1, 32]⟩ : Shape).Idx → EReal) (W U : (⟨2, ![32, 96]⟩ : Shape).Idx → EReal)
    (bin brec : (⟨1, ![96]⟩ : Shape).Idx → EReal) : (⟨3, ![2, 4096, 32]⟩ : Shape).Idx → EReal :=
  fun i => G' adj ann bias W U bin brec (i 0) (i 1) (i 2)

theorem G_ix3 (adj : (⟨3, ![2, 4096, 4096]⟩ : Shape).Idx → EReal) (ann : (⟨3, ![2, 4096, 32]⟩ : Shape).Idx → EReal)
    (bias : (⟨3, ![1, 1, 32]⟩ : Shape).Idx → EReal) (W U : (⟨2, ![32, 96]⟩ : Shape).Idx → EReal)
    (bin brec : (⟨1, ![96]⟩ : Shape).Idx → EReal) (b : Fin 2) (n : Fin 4096) (c : Fin 32) :
    G adj ann bias W U bin brec (ix3 b n c) = G' adj ann bias W U bin brec b n c := rfl

end Cert.GruSpec

end
-- ==== Proof.KI.Payload.lean ====
/-
  The kernel's stored values read at an index. Each store of the kernel body writes one pure term of the
  values loaded before it; here each such term is read at a row and a channel and identified with plain
  arithmetic on the extended reals: a block of the contraction (one column block of the adjacency times the
  matching rows of the annotations), that block added to the accumulator, and one GRU step on a row.
-/
import proofs.«164906_g76081050681489_cont_9to1_m_207_10_alg».proof.Proof.Gen.KernelIdeal.Skeleton
import proofs.«164906_g76081050681489_cont_9to1_m_207_10_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayVal

open Cert.KernelIdeal Cert.KernelIdeal.Gen Idealize.ShloMosaic Idealize.ShloMosaic.ValueIdx

/-- Operand coordinates of the product `dot_S512x1024_S1024x32_S512x32_1_0_0_1_n_n` at an output index and a contraction index. -/
theorem lhs_blk_0 (i : S512x32.Idx) (q : dot_S512x1024_S1024x32_S512x32_1_0_0_1_n_n.contr.Idx) :
    (dot_S512x1024_S1024x32_S512x32_1_0_0_1_n_n.lhsIdx i q 0).val = (i 0).val := by
  unfold DotDims.lhsIdx
  rw [dif_neg (show ¬(0 : Fin S512x1024.rank) ∈ dot_S512x1024_S1024x32_S512x32_1_0_0_1_n_n.lhsBatch by decide), dif_pos (show (0 : Fin S512x1024.rank) ∈ dot_S512x1024_S1024x32_S512x32_1_0_0_1_n_n.lhsNonContracting by decide)]
  rfl
theorem lhs_blk_1 (i : S512x32.Idx) (q : dot_S512x1024_S1024x32_S512x32_1_0_0_1_n_n.contr.Idx) :
    (dot_S512x1024_S1024x32_S512x32_1_0_0_1_n_n.lhsIdx i q 1).val = (q ⟨0, by decide⟩).val :=
  dot_S512x1024_S1024x32_S512x32_1_0_0_1_n_n.lhsIdx_val_of_single rfl i q
theorem rhs_blk_0 (i : S512x32.Idx) (q : dot_S512x1024_S1024x32_S512x32_1_0_0_1_n_n.contr.Idx) :
    (dot_S512x1024_S1024x32_S512x32_1_0_0_1_n_n.rhsIdx i q 0).val = (q ⟨0, by decide⟩).val :=
  dot_S512x1024_S1024x32_S512x32_1_0_0_1_n_n.rhsIdx_val_of_single rfl i q
theorem rhs_blk_1 (i : S512x32.Idx) (q : dot_S512x1024_S1024x32_S512x32_1_0_0_1_n_n.contr.Idx) :
    (dot_S512x1024_S1024x32_S512x32_1_0_0_1_n_n.rhsIdx i q 1).val = (i 1).val := by
  unfold DotDims.rhsIdx
  rw [dif_neg (show ¬(1 : Fin S1024x32.rank) ∈ dot_S512x1024_S1024x32_S512x32_1_0_0_1_n_n.rhsBatch by decide), dif_pos (show (1 : Fin S1024x32.rank) ∈ dot_S512x1024_S1024x32_S512x32_1_0_0_1_n_n.rhsNonContracting by decide)]
  rfl

/-- The matrix unit's product into a zero accumulator, [512,1024] × [1024,32], read at row `r`, channel `k`:
the sum over the 1024 contracted positions. -/
theorem matmul_blk_apply (a : FVec Ideal S512x1024 .f32) (b : FVec Ideal S1024x32 .f32) (r : Fin 512) (k : Fin 32) :
    matmul (F := Ideal) dot_S512x1024_S1024x32_S512x32_1_0_0_1_n_n none a b (constant (F := Ideal) S512x32 .f32 0x00000000#32) (ix2 r k)
      = ∑ l : Fin 1024, a (ix2 r l) * b (ix2 l k) := by
  refine (Ideal.matmul_constant_zero_apply dot_S512x1024_S1024x32_S512x32_1_0_0_1_n_n none a b (ix2 r k)).trans ?_
  rw [← Equiv.sum_comp (contrEquiv1 dot_S512x1024_S1024x32_S512x32_1_0_0_1_n_n 1024 rfl rfl).symm]
  refine Finset.sum_congr rfl fun l _ => ?_
  have hl := contrEquiv1_symm_val dot_S512x1024_S1024x32_S512x32_1_0_0_1_n_n 1024 rfl rfl l
  have el : dot_S512x1024_S1024x32_S512x32_1_0_0_1_n_n.lhsIdx (ix2 r k) ((contrEquiv1 dot_S512x1024_S1024x32_S512x32_1_0_0_1_n_n 1024 rfl rfl).symm l) = ix2 r l := funext fun ax => Fin.ext (by
    match ax with
    | ⟨0, _⟩ => exact lhs_blk_0 _ _
    | ⟨1, _⟩ => exact (lhs_blk_1 _ _).trans hl)
  have er : dot_S512x1024_S1024x32_S512x32_1_0_0_1_n_n.rhsIdx (ix2 r k) ((contrEquiv1 dot_S512x1024_S1024x32_S512x32_1_0_0_1_n_n 1024 rfl rfl).symm l) = ix2 l k := funext fun ax => Fin.ext (by
    match ax with
    | ⟨0, _⟩ => exact (rhs_blk_0 _ _).trans hl
    | ⟨1, _⟩ => exact rhs_blk_1 _ _)
  rw [el, er]

/-- One column block's contribution: the block of the adjacency times the block of the annotations. -/
theorem pay1_apply (x0 : Vec Ideal S1x512x1024 .f32) (x1 : Vec Ideal S1x1024x32 .f32) (r : Fin 512) (k : Fin 32) :
    k0_pay1 (F := Ideal) x0 x1 (ix2 r k) = ∑ l : Fin 1024, x0 (ix3 (0 : Fin 1) r l) * x1 (ix3 (0 : Fin 1) l k) := by
  unfold k0_pay1
  refine (matmul_blk_apply _ _ r k).trans ?_
  refine Finset.sum_congr rfl fun l _ => ?_
  rw [shapeCast_1ab_ab_apply, shapeCast_1ab_ab_apply]

/-- What the first column block stores into the accumulator. -/
theorem pay2_apply (x0 : Vec Ideal S1x512x1024 .f32) (x1 : Vec Ideal S1x1024x32 .f32) (r : Fin 512) (k : Fin 32) :
    k0_pay2 (F := Ideal) x0 x1 (ix2 r k) = ∑ l : Fin 1024, x0 (ix3 (0 : Fin 1) r l) * x1 (ix3 (0 : Fin 1) l k) := by
  unfold k0_pay2
  rw [shapeCast_self]
  exact pay1_apply x0 x1 r k

/-- What a later column block stores: the accumulator plus that block's contribution. -/
theorem pay3_apply (x0 : Vec Ideal S1x512x1024 .f32) (x1 : Vec Ideal S1x1024x32 .f32) (acc : Vec Ideal S512x32 .f32) (r : Fin 512) (k : Fin 32) :
    k0_pay3 (F := Ideal) x0 x1 acc (ix2 r k) = acc (ix2 r k) + ∑ l : Fin 1024, x0 (ix3 (0 : Fin 1) r l) * x1 (ix3 (0 : Fin 1) l k) := by
  unfold k0_pay3
  rw [shapeCast_self, addf_apply, pay1_apply]

/-- Operand coordinates of the product `dot_S512x32_S32x96_S512x96_1_0_0_1_n_n` at an output index and a contraction index. -/
theorem lhs_gate_0 (i : S512x96.Idx) (q : dot_S512x32_S32x96_S512x96_1_0_0_1_n_n.contr.Idx) :
    (dot_S512x32_S32x96_S512x96_1_0_0_1_n_n.lhsIdx i q 0).val = (i 0).val := by
  unfold DotDims.lhsIdx
  rw [dif_neg (show ¬(0 : Fin S512x32.rank) ∈ dot_S512x32_S32x96_S512x96_1_0_0_1_n_n.lhsBatch by decide), dif_pos (show (0 : Fin S512x32.rank) ∈ dot_S512x32_S32x96_S512x96_1_0_0_1_n_n.lhsNonContracting by decide)]
  rfl
theorem lhs_gate_1 (i : S512x96.Idx) (q : dot_S512x32_S32x96_S512x96_1_0_0_1_n_n.contr.Idx) :
    (dot_S512x32_S32x96_S512x96_1_0_0_1_n_n.lhsIdx i q 1).val = (q ⟨0, by decide⟩).val :=
  dot_S512x32_S32x96_S512x96_1_0_0_1_n_n.lhsIdx_val_of_single rfl i q
theorem rhs_gate_0 (i : S512x96.Idx) (q : dot_S512x32_S32x96_S512x96_1_0_0_1_n_n.contr.Idx) :
    (dot_S512x32_S32x96_S512x96_1_0_0_1_n_n.rhsIdx i q 0).val = (q ⟨0, by decide⟩).val :=
  dot_S512x32_S32x96_S512x96_1_0_0_1_n_n.rhsIdx_val_of_single rfl i q
theorem rhs_gate_1 (i : S512x96.Idx) (q : dot_S512x32_S32x96_S512x96_1_0_0_1_n_n.contr.Idx) :
    (dot_S512x32_S32x96_S512x96_1_0_0_1_n_n.rhsIdx i q 1).val = (i 1).val := by
  unfold DotDims.rhsIdx
  rw [dif_neg (show ¬(1 : Fin S32x96.rank) ∈ dot_S512x32_S32x96_S512x96_1_0_0_1_n_n.rhsBatch by decide), dif_pos (show (1 : Fin S32x96.rank) ∈ dot_S512x32_S32x96_S512x96_1_0_0_1_n_n.rhsNonContracting by decide)]
  rfl

/-- The matrix unit's product into a zero accumulator, [512,32] × [32,96], read at row `r`, column `j`:
the sum over the 32 contracted channels. -/
theorem matmul_gate_apply (a : FVec Ideal S512x32 .f32) (b : FVec Ideal S32x96 .f32) (r : Fin 512) (j : Fin 96) :
    matmul (F := Ideal) dot_S512x32_S32x96_S512x96_1_0_0_1_n_n none a b (constant (F := Ideal) S512x96 .f32 0x00000000#32) (ix2 r j)
      = ∑ k : Fin 32, a (ix2 r k) * b (ix2 k j) := by
  refine (Ideal.matmul_constant_zero_apply dot_S512x32_S32x96_S512x96_1_0_0_1_n_n none a b (ix2 r j)).trans ?_
  rw [← Equiv.sum_comp (contrEquiv1 dot_S512x32_S32x96_S512x96_1_0_0_1_n_n 32 rfl rfl).symm]
  refine Finset.sum_congr rfl fun k _ => ?_
  have hk := contrEquiv1_symm_val dot_S512x32_S32x96_S512x96_1_0_0_1_n_n 32 rfl rfl k
  have el : dot_S512x32_S32x96_S512x96_1_0_0_1_n_n.lhsIdx (ix2 r j) ((contrEquiv1 dot_S512x32_S32x96_S512x96_1_0_0_1_n_n 32 rfl rfl).symm k) = ix2 r k := funext fun ax => Fin.ext (by
    match ax with
    | ⟨0, _⟩ => exact lhs_gate_0 _ _
    | ⟨1, _⟩ => exact (lhs_gate_1 _ _).trans hk)
  have er : dot_S512x32_S32x96_S512x96_1_0_0_1_n_n.rhsIdx (ix2 r j) ((contrEquiv1 dot_S512x32_S32x96_S512x96_1_0_0_1_n_n 32 rfl rfl).symm k) = ix2 k j := funext fun ax => Fin.ext (by
    match ax with
    | ⟨0, _⟩ => exact (rhs_gate_0 _ _).trans hk
    | ⟨1, _⟩ => exact rhs_gate_1 _ _)
  rw [el, er]

/-! ## The GRU step on a block of 512 rows -/

/-- The three gates' pre-activations from the input side, all 96 columns: (accumulator + bias row) · W + b_in. -/
def xgate (acc : FVec Ideal S512x32 .f32) (bias : FVec Ideal S1x32 .f32) (W : FVec Ideal S32x96 .f32) (bin : FVec Ideal S1x96 .f32) :
    FVec Ideal S512x96 .f32 :=
  have v18 : FVec Ideal S32 .f32 := shapeCast S32 bias shapeCasts_S1x32_S32
  have v19 : FVec Ideal S1x32 .f32 := shapeCast S1x32 v18 shapeCasts_S32_S1x32
  have v20 : FVec Ideal S512x32 .f32 := broadcastTo S512x32 v19 broadcasts_S1x32_S512x32
  have v21 : FVec Ideal S512x32 .f32 := addf acc v20
  have cst : FVec Ideal S512x96 .f32 := constant S512x96 .f32 0x00000000#32
  have v23 : FVec Ideal S512x96 .f32 := matmul dot_S512x32_S32x96_S512x96_1_0_0_1_n_n none v21 W cst
  have v25 : FVec Ideal S1x96 .f32 := shapeCast S1x96 bin shapeCasts_S1x96_S1x96
  have v26 : FVec Ideal S512x96 .f32 := broadcastTo S512x96 v25 broadcasts_S1x96_S512x96
  addf v23 v26

/-- The three gates' pre-activations from the hidden side, all 96 columns: h · U + b_rec. -/
def hgate (h : FVec Ideal S1x512x32 .f32) (U : FVec Ideal S32x96 .f32) (brec : FVec Ideal S1x96 .f32) : FVec Ideal S512x96 .f32 :=
  have v15 : FVec Ideal S512x32 .f32 := shapeCast S512x32 h shapeCasts_S1x512x32_S512x32
  have cst : FVec Ideal S512x96 .f32 := constant S512x96 .f32 0x00000000#32
  have v29 : FVec Ideal S512x96 .f32 := matmul dot_S512x32_S32x96_S512x96_1_0_0_1_n_n none v15 U cst
  have v31 : FVec Ideal S1x96 .f32 := shapeCast S1x96 brec shapeCasts_S1x96_S1x96
  have v32 : FVec Ideal S512x96 .f32 := broadcastTo S512x96 v31 broadcasts_S1x96_S512x96
  addf v29 v32

/-- The pointwise part of the step: from the two 96-wide pre-activation arrays `X`, `H` and the hidden block `h0`,
update gate from columns 0–31, reset gate from 32–63, candidate from 64–95, then the convex mix. -/
def gru (X H : FVec Ideal S512x96 .f32) (h0 : FVec Ideal S512x32 .f32) : FVec Ideal S512x32 .f32 :=
  have v34 : FVec Ideal S512x32 .f32 := extractStridedSlice S512x32 ![0, 0] X slices_S512x96_o0_0_S512x32
  have v35 : FVec Ideal S512x32 .f32 := extractStridedSlice S512x32 ![0, 0] H slices_S512x96_o0_0_S512x32
  have v36 : FVec Ideal S512x32 .f32 := addf v34 v35
  have v37 : FVec Ideal S512x32 .f32 := logistic v36
  have v38 : FVec Ideal S512x32 .f32 := extractStridedSlice S512x32 ![0, 32] X slices_S512x96_o0_32_S512x32
  have v39 : FVec Ideal S512x32 .f32 := extractStridedSlice S512x32 ![0, 32] H slices_S512x96_o0_32_S512x32
  have v40 : FVec Ideal S512x32 .f32 := addf v38 v39
  have v41 : FVec Ideal S512x32 .f32 := logistic v40
  have v42 : FVec Ideal S512x32 .f32 := extractStridedSlice S512x32 ![0, 64] X slices_S512x96_o0_64_S512x32
  have v43 : FVec Ideal S512x32 .f32 := extractStridedSlice S512x32 ![0, 64] H slices_S512x96_o0_64_S512x32
  have v44 : FVec Ideal S512x32 .f32 := mulf v41 v43
  have v45 : FVec Ideal S512x32 .f32 := addf v42 v44
  have v46 : FVec Ideal S512x32 .f32 := tanh v45
  have v47 : FVec Ideal S512x32 .f32 := mulf v37 h0
  have lit : Ideal .f32 := Scalar.ofBits .f32 0x3F800000#32
  have v48 : FVec Ideal S512x32 .f32 := broadcast S512x32 lit
  have v49 : FVec Ideal S512x32 .f32 := subf v48 v37
  have v50 : FVec Ideal S512x32 .f32 := mulf v49 v46
  addf v47 v50

/-- The kernel's GRU payload is the pointwise part applied to the two pre-activation arrays and the hidden block. -/
theorem pay5_eq (h : Vec Ideal S1x512x32 .f32) (acc : Vec Ideal S512x32 .f32) (bias : Vec Ideal S1x32 .f32) (W : Vec Ideal S32x96 .f32)
    (bin : Vec Ideal S1x96 .f32) (U : Vec Ideal S32x96 .f32) (brec : Vec Ideal S1x96 .f32) :
    k0_pay5 (F := Ideal) h acc bias W bin U brec
      = gru (xgate acc bias W bin) (hgate h U brec) (shapeCast S512x32 h shapeCasts_S1x512x32_S512x32) := rfl

theorem logistic_apply {s : Shape} (x : FVec Ideal s .f32) (i : s.Idx) : logistic x i = Ideal.logistic (x i) := rfl

theorem tanh_apply {s : Shape} (x : FVec Ideal s .f32) (i : s.Idx) : tanh x i = Ideal.tanh (x i) := rfl

/-- The float literal one, read as the specification spells it. -/
theorem one_eq : Scalar.ofBits (F := Ideal) .f32 0x3F800000#32 = Cert.GruSpec.one := rfl

/-- An input-side pre-activation at row `r`, column `j`. -/
theorem xgate_apply (acc : FVec Ideal S512x32 .f32) (bias : FVec Ideal S1x32 .f32) (W : FVec Ideal S32x96 .f32) (bin : FVec Ideal S1x96 .f32)
    (r : Fin 512) (j : Fin 96) :
    xgate acc bias W bin (ix2 r j)
      = Cert.GruSpec.pre (fun k => acc (ix2 r k) + bias (ix2 (0 : Fin 1) k)) W (fun j => bin (ix2 (0 : Fin 1) j)) j := by
  unfold xgate Cert.GruSpec.pre
  rw [addf_apply, broadcastTo_1b_ab_apply, shapeCast_self]
  refine congrArg (· + bin (ix2 (0 : Fin 1) j)) ?_
  refine (matmul_gate_apply _ _ r j).trans ?_
  refine Finset.sum_congr rfl fun k _ => ?_
  rw [addf_apply, broadcastTo_1b_ab_apply, shapeCast_a_1a_apply, shapeCast_1a_a_apply]

/-- A hidden-side pre-activation at row `r`, column `j`. -/
theorem hgate_apply (h : FVec Ideal S1x512x32 .f32) (U : FVec Ideal S32x96 .f32) (brec : FVec Ideal S1x96 .f32) (r : Fin 512) (j : Fin 96) :
    hgate h U brec (ix2 r j)
      = Cert.GruSpec.pre (fun k => h (ix3 (0 : Fin 1) r k)) U (fun j => brec (ix2 (0 : Fin 1) j)) j := by
  unfold hgate Cert.GruSpec.pre
  rw [addf_apply, broadcastTo_1b_ab_apply, shapeCast_self]
  refine congrArg (· + brec (ix2 (0 : Fin 1) j)) ?_
  refine (matmul_gate_apply _ _ r j).trans ?_
  refine Finset.sum_congr rfl fun k _ => ?_
  rw [shapeCast_1ab_ab_apply]

/-- The pointwise part at row `r`, channel `c`. -/
theorem gru_apply (X H : FVec Ideal S512x96 .f32) (h0 : FVec Ideal S512x32 .f32) (r : Fin 512) (c : Fin 32) :
    gru X H h0 (ix2 r c)
      = Ideal.logistic (X (ix2 r ⟨c.val, by omega⟩) + H (ix2 r ⟨c.val, by omega⟩)) * h0 (ix2 r c)
        + (Cert.GruSpec.one - Ideal.logistic (X (ix2 r ⟨c.val, by omega⟩) + H (ix2 r ⟨c.val, by omega⟩)))
          * Ideal.tanh (X (ix2 r ⟨64 + c.val, by omega⟩)
              + Ideal.logistic (X (ix2 r ⟨32 + c.val, by omega⟩) + H (ix2 r ⟨32 + c.val, by omega⟩)) * H (ix2 r ⟨64 + c.val, by omega⟩)) := by
  unfold gru
  simp only [addf_apply, mulf_apply, subf_apply, broadcast_apply, logistic_apply, tanh_apply, one_eq]
  rw [slice2_axis1_apply 0 X slices_S512x96_o0_0_S512x32 r c ⟨c.val, by omega⟩ (Nat.zero_add _).symm,
    slice2_axis1_apply 0 H slices_S512x96_o0_0_S512x32 r c ⟨c.val, by omega⟩ (Nat.zero_add _).symm,
    slice2_axis1_apply 32 X slices_S512x96_o0_32_S512x32 r c ⟨32 + c.val, by omega⟩ rfl,
    slice2_axis1_apply 32 H slices_S512x96_o0_32_S512x32 r c ⟨32 + c.val, by omega⟩ rfl,
    slice2_axis1_apply 64 X slices_S512x96_o0_64_S512x32 r c ⟨64 + c.val, by omega⟩ rfl,
    slice2_axis1_apply 64 H slices_S512x96_o0_64_S512x32 r c ⟨64 + c.val, by omega⟩ rfl]

/-- The GRU payload at row `r`, channel `c`: one step of the cell on that row. -/
theorem pay5_apply (h : Vec Ideal S1x512x32 .f32) (acc : Vec Ideal S512x32 .f32) (bias : Vec Ideal S1x32 .f32) (W : Vec Ideal S32x96 .f32)
    (bin : Vec Ideal S1x96 .f32) (U : Vec Ideal S32x96 .f32) (brec : Vec Ideal S1x96 .f32) (r : Fin 512) (c : Fin 32) :
    k0_pay5 (F := Ideal) h acc bias W bin U brec (ix2 r c)
      = Cert.GruSpec.cell (fun k => acc (ix2 r k) + bias (ix2 (0 : Fin 1) k)) (fun k => h (ix3 (0 : Fin 1) r k)) W U
          (fun j => bin (ix2 (0 : Fin 1) j)) (fun j => brec (ix2 (0 : Fin 1) j)) c := by
  rw [pay5_eq, gru_apply]
  simp only [xgate_apply, hgate_apply, shapeCast_1ab_ab_apply]
  rfl

/-- What the last column block stores into the output block: the GRU step, row by row. -/
theorem pay45_apply (h : Vec Ideal S1x512x32 .f32) (acc : Vec Ideal S512x32 .f32) (bias : Vec Ideal S1x32 .f32) (W : Vec Ideal S32x96 .f32)
    (bin : Vec Ideal S1x96 .f32) (U : Vec Ideal S32x96 .f32) (brec : Vec Ideal S1x96 .f32) (r : Fin 512) (c : Fin 32) :
    k0_pay4 (F := Ideal) (k0_pay5 h acc bias W bin U brec) (ix3 (0 : Fin 1) r c)
      = Cert.GruSpec.cell (fun k => acc (ix2 r k) + bias (ix2 (0 : Fin 1) k)) (fun k => h (ix3 (0 : Fin 1) r k)) W U
          (fun j => bin (ix2 (0 : Fin 1) j)) (fun j => brec (ix2 (0 : Fin 1) j)) c := by
  unfold k0_pay4
  rw [shapeCast_ab_1ab_apply]
  exact pay5_apply h acc bias W bin U brec r c

end Cert.KernelIdeal.PayVal

end
-- ==== Proof.KI.Blocks.lean ====
/-
  Where the windows' blocks sit in their arrays. Grid point number t is graph t / 32, row block (t / 4) mod 8,
  column block t mod 4. At that point the adjacency window holds rows 512·((t / 4) mod 8) + r and columns
  1024·(t mod 4) + l of graph t / 32; the annotation chunk holds nodes 1024·(t mod 4) + l; the hidden-state and the
  output windows hold nodes 512·((t / 4) mod 8) + r; the five parameter windows hold their whole arrays. The three
  reshaped bias rows are the bias vectors themselves, read along their one long axis. The output window's blocks at
  the points with t mod 4 = 3 cover the output array.
-/
import proofs.«164906_g76081050681489_cont_9to1_m_207_10_alg».proof.Proof.KI.Setup
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

variable (m : (ℓ : Loc nD τ sig) → Buf (Elt F) ℓ)

/-! ## The block index maps, decided over the grid -/

/-- The block indices of every window at grid point t. -/
theorem idx_facts : ∀ t : Fin cfg0.N,
    (win0_0.index t (0 : Fin 3) = t.val / 32 ∧ win0_0.index t (1 : Fin 3) = t.val / 4 % 8 ∧ win0_0.index t (2 : Fin 3) = t.val % 4)
    ∧ (win0_1.index t (0 : Fin 3) = t.val / 32 ∧ win0_1.index t (1 : Fin 3) = t.val % 4 ∧ win0_1.index t (2 : Fin 3) = 0)
    ∧ (win0_2.index t (0 : Fin 3) = t.val / 32 ∧ win0_2.index t (1 : Fin 3) = t.val / 4 % 8 ∧ win0_2.index t (2 : Fin 3) = 0)
    ∧ (win0_8.index t (0 : Fin 3) = t.val / 32 ∧ win0_8.index t (1 : Fin 3) = t.val / 4 % 8 ∧ win0_8.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-! ## The blocks read at an index -/

/-- The adjacency block at point t: rows 512·((t / 4) mod 8) + r, columns 1024·(t mod 4) + l of graph t / 32. -/
theorem iblk0_apply (c : Dev nD) (t : Fin cfg0.N) (x : S1x512x1024.Idx) (k : S2x4096x4096.Idx)
    (hk0 : (k 0).val = t.val / 32) (hk1 : (k 1).val = t.val / 4 % 8 * 512 + (x 1).val) (hk2 : (k 2).val = t.val % 4 * 1024 + (x 2).val) :
    (iblk m c 0 t : Vec F S1x512x1024 .f32) x = (V m c main_arg0 : S2x4096x4096.Idx → Elt F .f32) k := by
  obtain ⟨⟨e0, e1, e2⟩, -⟩ := idx_facts t
  have hx0 : (x 0).val < 1 := (x 0).isLt
  unfold iblk
  rw [View.read_apply]
  show V m c main_arg0 _ = V m c main_arg0 _
  congr 1
  funext a
  apply Fin.ext
  match a with
  | ⟨0, _⟩ => show win0_0.index t (0 : Fin 3) * 1 + 1 * (x 0).val = (k 0).val; rw [e0, hk0]; omega
  | ⟨1, _⟩ => show win0_0.index t (1 : Fin 3) * 512 + 1 * (x 1).val = (k 1).val; rw [e1, hk1]; omega
  | ⟨2, _⟩ => show win0_0.index t (2 : Fin 3) * 1024 + 1 * (x 2).val = (k 2).val; rw [e2, hk2]; omega

/-- The annotation chunk at point t: nodes 1024·(t mod 4) + l of graph t / 32. -/
theorem iblk1_apply (c : Dev nD) (t : Fin cfg0.N) (x : S1x1024x32.Idx) (k : S2x4096x32.Idx)
    (hk0 : (k 0).val = t.val / 32) (hk1 : (k 1).val = t.val % 4 * 1024 + (x 1).val) (hk2 : (k 2).val = (x 2).val) :
    (iblk m c 1 t : Vec F S1x1024x32 .f32) x = (V m c main_arg1 : S2x4096x32.Idx → Elt F .f32) k := by
  obtain ⟨-, ⟨e0, e1, e2⟩, -⟩ := idx_facts t
  have hx0 : (x 0).val < 1 := (x 0).isLt
  unfold iblk
  rw [View.read_apply]
  show V m c main_arg1 _ = V m c main_arg1 _
  congr 1
  funext a
  apply Fin.ext
  match a with
  | ⟨0, _⟩ => show win0_1.index t (0 : Fin 3) * 1 + 1 * (x 0).val = (k 0).val; rw [e0, hk0]; omega
  | ⟨1, _⟩ => show win0_1.index t (1 : Fin 3) * 1024 + 1 * (x 1).val = (k 1).val; rw [e1, hk1]; omega
  | ⟨2, _⟩ => show win0_1.index t (2 : Fin 3) * 32 + 1 * (x 2).val = (k 2).val; rw [e2, hk2]; omega

/-- The hidden-state block at point t: nodes 512·((t / 4) mod 8) + r of graph t / 32. -/
theorem iblk2_apply (c : Dev nD) (t : Fin cfg0.N) (x : S1x512x32.Idx) (k : S2x4096x32.Idx)
    (hk0 : (k 0).val = t.val / 32) (hk1 : (k 1).val = t.val / 4 % 8 * 512 + (x 1).val) (hk2 : (k 2).val = (x 2).val) :
    (iblk m c 2 t : Vec F S1x512x32 .f32) x = (V m c main_arg1 : S2x4096x32.Idx → Elt F .f32) k := by
  obtain ⟨-, -, ⟨e0, e1, e2⟩, -⟩ := idx_facts t
  have hx0 : (x 0).val < 1 := (x 0).isLt
  unfold iblk
  rw [View.read_apply]
  show V m c main_arg1 _ = V m c main_arg1 _
  congr 1
  funext a
  apply Fin.ext
  match a with
  | ⟨0, _⟩ => show win0_2.index t (0 : Fin 3) * 1 + 1 * (x 0).val = (k 0).val; rw [e0, hk0]; omega
  | ⟨1, _⟩ => show win0_2.index t (1 : Fin 3) * 512 + 1 * (x 1).val = (k 1).val; rw [e1, hk1]; omega
  | ⟨2, _⟩ => show win0_2.index t (2 : Fin 3) * 32 + 1 * (x 2).val = (k 2).val; rw [e2, hk2]; omega

/-- The bias-row window holds its whole array at every point. -/
theorem iblk3_eq (c : Dev nD) (t : Fin cfg0.N) :
    (iblk m c 3 t : Vec F S1x32 .f32) = (V m c main_call0_v0 : S1x32.Idx → Elt F .f32) := by
  obtain ⟨-, -, -, -, ⟨e0, e1⟩, -⟩ := idx_facts t
  funext x
  unfold iblk
  rw [View.read_apply]
  show V m c main_call0_v0 _ = V m c main_call0_v0 _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 32 + 1 * (x 1).val = (x 1).val; rw [e1]; omega

/-- The input weights' window holds its whole array at every point. -/
theorem iblk4_eq (c : Dev nD) (t : Fin cfg0.N) :
    (iblk m c 4 t : Vec F S32x96 .f32) = (V m c main_arg3 : S32x96.Idx → Elt F .f32) := by
  obtain ⟨-, -, -, -, -, ⟨e0, e1⟩, -⟩ := idx_facts t
  funext x
  unfold iblk
  rw [View.read_apply]
  show V m c main_arg3 _ = V m c main_arg3 _
  congr 1
  funext a
  apply Fin.ext
  match a with
  | ⟨0, _⟩ => show win0_4.index t (0 : Fin 2) * 32 + 1 * (x 0).val = (x 0).val; rw [e0]; omega
  | ⟨1, _⟩ => show win0_4.index t (1 : Fin 2) * 96 + 1 * (x 1).val = (x 1).val; rw [e1]; omega

/-- The hidden weights' window holds its whole array at every point. -/
theorem iblk5_eq (c : Dev nD) (t : Fin cfg0.N) :
    (iblk m c 5 t : Vec F S32x96 .f32) = (V m c main_arg4 : S32x96.Idx → Elt F .f32) := by
  obtain ⟨-, -, -, -, -, -, ⟨e0, e1⟩, -⟩ := idx_facts t
  funext x
  unfold iblk
  rw [View.read_apply]
  show V m c main_arg4 _ = V m c main_arg4 _
  congr 1
  funext a
  apply Fin.ext
  match a with
  | ⟨0, _⟩ => show win0_5.index t (0 : Fin 2) * 32 + 1 * (x 0).val = (x 0).val; rw [e0]; omega
  | ⟨1, _⟩ => show win0_5.index t (1 : Fin 2) * 96 + 1 * (x 1).val = (x 1).val; rw [e1]; omega

/-- The input bias row's window holds its whole array at every point. -/
theorem iblk6_eq (c : Dev nD) (t : Fin cfg0.N) :
    (iblk m c 6 t : Vec F S1x96 .f32) = (V m c main_call0_v1 : S1x96.Idx → Elt F .f32) := by
  obtain ⟨-, -, -, -, -, -, -, ⟨e0, e1⟩, -⟩ := idx_facts t
  funext x
  unfold iblk
  rw [View.read_apply]
  show V m c main_call0_v1 _ = V m c main_call0_v1 _
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 96 + 1 * (x 1).val = (x 1).val; rw [e1]; omega

/-- The hidden bias row's window holds its whole array at every point. -/
theorem iblk7_eq (c : Dev nD) (t : Fin cfg0.N) :
    (iblk m c 7 t : Vec F S1x96 .f32) = (V m c main_call0_v2 : S1x96.Idx → Elt F .f32) := by
  obtain ⟨-, -, -, -, -, -, -, -, ⟨e0, e1⟩⟩ := idx_facts t
  funext x
  unfold iblk
  rw [View.read_apply]
  show V m c main_call0_v2 _ = V m c main_call0_v2 _
  congr 1
  funext a
  apply Fin.ext
  match a with
  | ⟨0, _⟩ => show win0_7.index t (0 : Fin 2) * 1 + 1 * (x 0).val = (x 0).val; rw [e0]; omega
  | ⟨1, _⟩ => show win0_7.index t (1 : Fin 2) * 96 + 1 * (x 1).val = (x 1).val; rw [e1]; omega

/-! ## The three reshaped bias rows -/

/-- The graph-convolution bias row the region finds is the bias array [1, 1, 32] reshaped to [1, 32]. -/
theorem V_bias_eq (c : Dev nD) :
    (V m c main_call0_v0 : S1x32.Idx → Elt F .f32)
      = shapeCast S1x32 (m ((c : Thread nD τ).loc main_arg2) : S1x1x32.Idx → Elt F .f32) shapeCasts_S1x1x32_S1x32 := by
  dsimp only [V, hostOps0]; after_results; rfl

/-- The input bias row the region finds is the bias vector [96] reshaped to [1, 96]. -/
theorem V_bin_eq (c : Dev nD) :
    (V m c main_call0_v1 : S1x96.Idx → Elt F .f32)
      = shapeCast S1x96 (m ((c : Thread nD τ).loc main_arg5) : S96.Idx → Elt F .f32) shapeCasts_S96_S1x96 := by
  dsimp only [V, hostOps0]; after_results; rfl

/-- The hidden bias row the region finds is the bias vector [96] reshaped to [1, 96]. -/
theorem V_brec_eq (c : Dev nD) :
    (V m c main_call0_v2 : S1x96.Idx → Elt F .f32)
      = shapeCast S1x96 (m ((c : Thread nD τ).loc main_arg6) : S96.Idx → Elt F .f32) shapeCasts_S96_S1x96 := by
  dsimp only [V, hostOps0]; after_results; rfl

/-- The graph-convolution bias row at channel k. -/
theorem V_bias_apply (c : Dev nD) (k : Fin 32) :
    (V m c main_call0_v0 : S1x32.Idx → Elt F .f32) (ix2 (0 : Fin 1) k)
      = (m ((c : Thread nD τ).loc main_arg2) : S1x1x32.Idx → Elt F .f32) (ix3 (0 : Fin 1) (0 : Fin 1) k) := by
  rw [V_bias_eq]
  exact shapeCast_1ab_ab_apply _ shapeCasts_S1x1x32_S1x32 (0 : Fin 1) k

/-- The input bias row at column j. -/
theorem V_bin_apply (c : Dev nD) (j : Fin 96) :
    (V m c main_call0_v1 : S1x96.Idx → Elt F .f32) (ix2 (0 : Fin 1) j)
      = (m ((c : Thread nD τ).loc main_arg5) : S96.Idx → Elt F .f32) (ix1 j) := by
  rw [V_bin_eq]
  exact shapeCast_a_1a_apply _ shapeCasts_S96_S1x96 (0 : Fin 1) j

/-- The hidden bias row at column j. -/
theorem V_brec_apply (c : Dev nD) (j : Fin 96) :
    (V m c main_call0_v2 : S1x96.Idx → Elt F .f32) (ix2 (0 : Fin 1) j)
      = (m ((c : Thread nD τ).loc main_arg6) : S96.Idx → Elt F .f32) (ix1 j) := by
  rw [V_brec_eq]
  exact shapeCast_a_1a_apply _ shapeCasts_S96_S1x96 (0 : Fin 1) j

/-! ## The output window's blocks -/

/-- An element of the output block at point t sits at node 512·((t / 4) mod 8) + r of graph t / 32. -/
theorem emb8_eq (t : Fin cfg0.N) (x : S1x512x32.Idx) (k : S2x4096x32.Idx)
    (hk0 : (k 0).val = t.val / 32) (hk1 : (k 1).val = t.val / 4 % 8 * 512 + (x 1).val) (hk2 : (k 2).val = (x 2).val) :
    ((cfg0.win 8).blk t).view.emb x = k := by
  obtain ⟨-, -, -, ⟨e0, e1, e2⟩, -⟩ := idx_facts t
  have hx0 : (x 0).val < 1 := (x 0).isLt
  funext a
  apply Fin.ext
  match a with
  | ⟨0, _⟩ => show win0_8.index t (0 : Fin 3) * 1 + 1 * (x 0).val = (k 0).val; rw [e0, hk0]; omega
  | ⟨1, _⟩ => show win0_8.index t (1 : Fin 3) * 512 + 1 * (x 1).val = (k 1).val; rw [e1, hk1]; omega
  | ⟨2, _⟩ => show win0_8.index t (2 : Fin 3) * 32 + 1 * (x 2).val = (k 2).val; rw [e2, hk2]; omega

/-- An index of the output array is in point t's block iff each coordinate is in the block's range on its axis. -/
theorem mem_blk8 (t : Fin cfg0.N) (i : S2x4096x32.Idx) :
    i ∈ ((cfg0.win 8).blk t).view.set ↔ ∀ a : Fin 3, win0_8.index t a * S1x512x32.size a ≤ (i a).val ∧ (i a).val < win0_8.index t a * S1x512x32.size a + S1x512x32.size a := by
  show i ∈ ((View.whole main_v0).slice (win0_8.rect t)).set ↔ _
  rw [View.set_slice_whole, Rect.mem_set_unit]
  exact Iff.rfl

/-- Every index of the output array is in the block of a point that writes back: node n of graph b is in the block
    of point 32·b + 4·(n / 512) + 3. -/
theorem cover8 (i : S2x4096x32.Idx) :
    ∃ t : Fin cfg0.N, (cfg0.win 8).flush t = true ∧ i ∈ ((cfg0.win 8).blk t).view.set := by
  have h0 : (i 0).val < 2 := (i 0).isLt
  have h1 : (i 1).val < 4096 := (i 1).isLt
  have h2 : (i 2).val < 32 := (i 2).isLt
  have hN : cfg0.N = 64 := N_0
  let t : Fin cfg0.N := ⟨32 * (i 0).val + 4 * ((i 1).val / 512) + 3, by omega⟩
  have ht : t.val = 32 * (i 0).val + 4 * ((i 1).val / 512) + 3 := rfl
  obtain ⟨-, -, -, ⟨e0, e1, e2⟩, -⟩ := idx_facts t
  refine ⟨t, (flush0_8 t).mpr (by omega), ?_⟩
  rw [mem_blk8]
  intro a
  match a with
  | ⟨0, _⟩ => show win0_8.index t (0 : Fin 3) * 1 ≤ (i 0).val ∧ (i 0).val < win0_8.index t (0 : Fin 3) * 1 + 1; rw [e0]; omega
  | ⟨1, _⟩ => show win0_8.index t (1 : Fin 3) * 512 ≤ (i 1).val ∧ (i 1).val < win0_8.index t (1 : Fin 3) * 512 + 512; rw [e1]; omega
  | ⟨2, _⟩ => show win0_8.index t (2 : Fin 3) * 32 ≤ (i 2).val ∧ (i 2).val < win0_8.index t (2 : Fin 3) * 32 + 32; rw [e2]; omega

end Cert.KernelIdeal.Hand

end
-- ==== Proof.BlockSum.lean ====
/-
  A sum over 4096 indices is the sum of its four consecutive blocks of 1024, taken in order: the contraction
  over all the nodes of a graph is accumulated one column block at a time. Addition of extended reals is
  commutative and associative, so this is a re-indexing of a finite sum and needs no finiteness of the terms.
-/
import Mathlib.Algebra.BigOperators.Fin
import Mathlib.Data.EReal.Basic

namespace Cert.GruSpec

open Finset

/-- A sum over `Fin 4096` split into its four blocks of 1024, associated to the left. -/
theorem sum_four_blocks (f : Fin 4096 → EReal) :
    ∑ l : Fin 4096, f l = ((∑ l : Fin 1024, f ⟨l.val, by omega⟩ + ∑ l : Fin 1024, f ⟨1024 + l.val, by omega⟩) + ∑ l : Fin 1024, f ⟨2048 + l.val, by omega⟩) + ∑ l : Fin 1024, f ⟨3072 + l.val, by omega⟩ := by
  -- 4096 = 3072 + 1024: the last block comes off.
  have h1 : ∑ l : Fin 4096, f l
      = ∑ l : Fin 3072, f ⟨l.val, by omega⟩ + ∑ l : Fin 1024, f ⟨3072 + l.val, by omega⟩ :=
    Fin.sum_univ_add (M := EReal) (a := 3072) (b := 1024) f
  -- 3072 = 2048 + 1024: the third block comes off.
  have h2 : ∑ l : Fin 3072, f ⟨l.val, by omega⟩
      = ∑ l : Fin 2048, f ⟨l.val, by omega⟩ + ∑ l : Fin 1024, f ⟨2048 + l.val, by omega⟩ :=
    Fin.sum_univ_add (M := EReal) (a := 2048) (b := 1024) (fun l : Fin 3072 => f ⟨l.val, by omega⟩)
  -- 2048 = 1024 + 1024: the first two blocks.
  have h3 : ∑ l : Fin 2048, f ⟨l.val, by omega⟩
      = ∑ l : Fin 1024, f ⟨l.val, by omega⟩ + ∑ l : Fin 1024, f ⟨1024 + l.val, by omega⟩ :=
    Fin.sum_univ_add (M := EReal) (a := 1024) (b := 1024) (fun l : Fin 2048 => f ⟨l.val, by omega⟩)
  rw [h1, h2, h3]

end Cert.GruSpec
-- ==== Proof.KI.Value.lean ====
/-
  The kernel's output array after the run is the specification. The accumulator after the last column block of a row
  block holds, for each of its 512 rows and each channel, the contraction of that row of the adjacency against the
  annotations over all 4096 nodes: the four column blocks' partial sums added in order. The rows stored at that
  point are one GRU step on the accumulated row plus the bias; they are the block of the specification at that point,
  and the blocks written back cover the output array.
-/
import proofs.«164906_g76081050681489_cont_9to1_m_207_10_alg».proof.Proof.KI.Frame
import proofs.«164906_g76081050681489_cont_9to1_m_207_10_alg».proof.Proof.KI.Payload
import proofs.«164906_g76081050681489_cont_9to1_m_207_10_alg».proof.Proof.KI.Blocks
import proofs.«164906_g76081050681489_cont_9to1_m_207_10_alg».proof.Proof.BlockSum

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The accumulator after the last column block -/

/-- One column block's partial sum at point t', row r, channel k, read in the arrays: the rows and nodes are those
    of the point's row block and column block. -/
theorem colblock_sum_apply (c : Dev nD) (t' : Fin cfg0.N) (r : Fin 512) (k : Fin 32) (b : Fin 2) (n : Fin 4096)
    (hb : b.val = t'.val / 32) (hn : n.val = t'.val / 4 % 8 * 512 + r.val)
    (idx : Fin 1024 → Fin 4096) (hidx : ∀ l, (idx l).val = t'.val % 4 * 1024 + l.val)
    (x0 : Vec Ideal S1x512x1024 .f32) (x1 : Vec Ideal S1x1024x32 .f32)
    (adj : S2x4096x4096.Idx → EReal) (ann : S2x4096x32.Idx → EReal)
    (h0 : x0 = iblk m c 0 t') (h1 : x1 = iblk m c 1 t') (hA : V m c main_arg0 = adj) (hB : V m c main_arg1 = ann) :
    ∑ l : Fin 1024, x0 (ix3 (0 : Fin 1) r l) * x1 (ix3 (0 : Fin 1) l k)
      = ∑ l : Fin 1024, adj (ix3 b n (idx l)) * ann (ix3 b (idx l) k) := by
  subst h0 h1 hA hB
  refine Finset.sum_congr rfl fun l _ => ?_
  rw [iblk0_apply m c t' (ix3 (0 : Fin 1) r l) (ix3 b n (idx l)) hb hn (hidx l),
    iblk1_apply m c t' (ix3 (0 : Fin 1) l k) (ix3 b (idx l) k) hb (hidx l) rfl]

theorem accAt_succ_later (c : Dev nD) (n : ℕ) (hn : n + 1 < cfg0.N) (h0 : ¬ (n + 1) % 4 = 0) :
    accAt m c (n + 1) hn = k0_pay3 (iblk m c 0 ⟨n + 1, hn⟩) (iblk m c 1 ⟨n + 1, hn⟩) (accAt m c n (Nat.lt_of_succ_lt hn)) :=
  accAt_later m c ⟨n + 1, hn⟩ h0

/-- After the last column block the accumulator's row r, channel k is the contraction over all 4096 nodes. -/
theorem acc_last_contraction (c : Dev nD) (t : Fin cfg0.N) (h3 : t.val % 4 = 3) (r : Fin 512) (k : Fin 32) (b : Fin 2) (n : Fin 4096)
    (hb : b.val = t.val / 32) (hn : n.val = t.val / 4 % 8 * 512 + r.val)
    (adj : S2x4096x4096.Idx → EReal) (ann : S2x4096x32.Idx → EReal) (hA : V m c main_arg0 = adj) (hB : V m c main_arg1 = ann) :
    (accAt m c t.val t.isLt : Vec Ideal S512x32 .f32) (ix2 r k) = ∑ l : Fin 4096, adj (ix3 b n l) * ann (ix3 b l k) := by
  have hN : cfg0.N = 64 := N_0
  obtain ⟨tv, ht⟩ := t
  obtain ⟨s, rfl⟩ : ∃ s, tv = s + 3 := ⟨tv - 3, by have : tv % 4 = 3 := h3; omega⟩
  have h3' : (s + 3) % 4 = 3 := h3
  have hb' : b.val = (s + 3) / 32 := hb
  have hn' : n.val = (s + 3) / 4 % 8 * 512 + r.val := hn
  have l2 : s + 2 < cfg0.N := by omega
  have l1 : s + 1 < cfg0.N := by omega
  have l0 : s < cfg0.N := by omega
  have e3 : accAt m c (s + 3) ht = k0_pay3 (iblk m c 0 ⟨s + 3, ht⟩) (iblk m c 1 ⟨s + 3, ht⟩) (accAt m c (s + 2) l2) :=
    accAt_succ_later m c (s + 2) ht (by omega)
  have e2 : accAt m c (s + 2) l2 = k0_pay3 (iblk m c 0 ⟨s + 2, l2⟩) (iblk m c 1 ⟨s + 2, l2⟩) (accAt m c (s + 1) l1) :=
    accAt_succ_later m c (s + 1) l2 (by omega)
  have e1 : accAt m c (s + 1) l1 = k0_pay3 (iblk m c 0 ⟨s + 1, l1⟩) (iblk m c 1 ⟨s + 1, l1⟩) (accAt m c s l0) :=
    accAt_succ_later m c s l1 (by omega)
  have e0 : accAt m c s l0 = k0_pay2 (iblk m c 0 ⟨s, l0⟩) (iblk m c 1 ⟨s, l0⟩) :=
    accAt_first m c ⟨s, l0⟩ (by show s % 4 = 0; omega)
  show accAt m c (s + 3) ht (ix2 r k) = _
  rw [e3]
  refine (PayVal.pay3_apply (iblk m c 0 ⟨s + 3, ht⟩) (iblk m c 1 ⟨s + 3, ht⟩) (accAt m c (s + 2) l2) r k).trans ?_
  rw [e2]
  rw [PayVal.pay3_apply (iblk m c 0 ⟨s + 2, l2⟩) (iblk m c 1 ⟨s + 2, l2⟩) (accAt m c (s + 1) l1) r k]
  rw [e1]
  rw [PayVal.pay3_apply (iblk m c 0 ⟨s + 1, l1⟩) (iblk m c 1 ⟨s + 1, l1⟩) (accAt m c s l0) r k]
  rw [e0]
  rw [PayVal.pay2_apply (iblk m c 0 ⟨s, l0⟩) (iblk m c 1 ⟨s, l0⟩) r k]
  rw [colblock_sum_apply m c ⟨s, l0⟩ r k b n (by show b.val = s / 32; omega) (by show n.val = s / 4 % 8 * 512 + r.val; omega)
      (fun l => ⟨l.val, by omega⟩) (fun l => by show l.val = s % 4 * 1024 + l.val; omega) _ _ adj ann rfl rfl hA hB,
    colblock_sum_apply m c ⟨s + 1, l1⟩ r k b n (by show b.val = (s + 1) / 32; omega) (by show n.val = (s + 1) / 4 % 8 * 512 + r.val; omega)
      (fun l => ⟨1024 + l.val, by omega⟩) (fun l => by show 1024 + l.val = (s + 1) % 4 * 1024 + l.val; omega) _ _ adj ann rfl rfl hA hB,
    colblock_sum_apply m c ⟨s + 2, l2⟩ r k b n (by show b.val = (s + 2) / 32; omega) (by show n.val = (s + 2) / 4 % 8 * 512 + r.val; omega)
      (fun l => ⟨2048 + l.val, by omega⟩) (fun l => by show 2048 + l.val = (s + 2) % 4 * 1024 + l.val; omega) _ _ adj ann rfl rfl hA hB,
    colblock_sum_apply m c ⟨s + 3, ht⟩ r k b n hb' hn'
      (fun l => ⟨3072 + l.val, by omega⟩) (fun l => by show 3072 + l.val = (s + 3) % 4 * 1024 + l.val; omega) _ _ adj ann rfl rfl hA hB]
  exact (Cert.GruSpec.sum_four_blocks (fun l : Fin 4096 => adj (ix3 b n l) * ann (ix3 b l k))).symm

/-! ## The rows stored at the last column block -/

/-- The GRU cell depends only on the values of its arguments. -/
theorem cell_congr {x x' h h' : Fin 32 → EReal} {W W' U U' : (⟨2, ![32, 96]⟩ : Shape).Idx → EReal} {bi bi' br br' : Fin 96 → EReal}
    (ex : x = x') (eh : h = h') (eW : W = W') (eU : U = U') (ebi : bi = bi') (ebr : br = br') (ch : Fin 32) :
    Cert.GruSpec.cell x h W U bi br ch = Cert.GruSpec.cell x' h' W' U' bi' br' ch := by
  subst ex eh eW eU ebi ebr; rfl

/-- What the last column block of a row block stores, at row r and channel ch: the specification at that node. -/
theorem outAt_apply (c : Dev nD) (t : Fin cfg0.N) (h3 : t.val % 4 = 3) (r : Fin 512) (ch : Fin 32) (b : Fin 2) (n : Fin 4096)
    (hb : b.val = t.val / 32) (hn : n.val = t.val / 4 % 8 * 512 + r.val) :
    (outAt m c t : Vec Ideal S1x512x32 .f32) (ix3 (0 : Fin 1) r ch)
      = Cert.GruSpec.G' (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) b n ch := by
  unfold outAt
  refine (PayVal.pay45_apply (iblk m c 2 t) (accAt m c t.val t.isLt) (iblk m c 3 t) (iblk m c 4 t) (iblk m c 6 t) (iblk m c 5 t) (iblk m c 7 t) r ch).trans ?_
  unfold Cert.GruSpec.G'
  refine cell_congr (funext fun k => ?_) (funext fun k => ?_) ?_ ?_ (funext fun j => ?_) (funext fun j => ?_) ch
  · -- the aggregated input row: the accumulated contraction plus the bias
    unfold Cert.GruSpec.agg
    rw [acc_last_contraction m c t h3 r k b n hb hn _ _ (V_main_arg0 m c) (V_main_arg1 m c), iblk3_eq m c t, V_bias_apply m c k]
  · -- the hidden row
    rw [iblk2_apply m c t (ix3 (0 : Fin 1) r k) (ix3 b n k) hb hn rfl, V_main_arg1 m c]
  · rw [iblk4_eq m c t, V_main_arg3 m c]
  · rw [iblk5_eq m c t, V_main_arg4 m c]
  · rw [iblk6_eq m c t, V_bin_apply m c j]
  · rw [iblk7_eq m c t, V_brec_apply m c j]

/-! ## The blocks written back, and the array after the run -/

/-- What a point of the last column block writes back is its block of the specification. -/
theorem flushed8_eq (c : Dev nD) (t : Fin cfg0.N) (hf : (cfg0.win 8).flush t = true) :
    (dats m 0 c).flushed 8 t
      = ((cfg0.win 8).blk t).view.read (Elt Ideal)
          (Cert.GruSpec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))) := by
  have h3 : t.val % 4 = 3 := (flush0_8 t).mp hf
  have hN : cfg0.N = 64 := N_0
  have hlt := t.isLt
  show (cfg0.win 8).cut (grid0.coords t) ((dats m 0 c).after 8 t) = _
  rw [after0_8]
  funext x
  rw [View.read_apply]
  obtain ⟨u, r, ch, rfl⟩ : ∃ (u : Fin 1) (r : Fin 512) (ch : Fin 32), x = ix3 u r ch :=
    ⟨(x : S1x512x32.Idx) 0, (x : S1x512x32.Idx) 1, (x : S1x512x32.Idx) 2, eq_ix3 (x : S1x512x32.Idx)⟩
  obtain rfl : u = 0 := Fin.ext (by omega)
  have hr := r.isLt
  rw [emb8_eq t (ix3 (0 : Fin 1) r ch) (ix3 (⟨t.val / 32, by omega⟩ : Fin 2) (⟨t.val / 4 % 8 * 512 + r.val, by omega⟩ : Fin 4096) ch) rfl rfl rfl]
  show (outAt m c t : Vec Ideal S1x512x32 .f32) (ix3 (0 : Fin 1) r ch) = Cert.GruSpec.G _ _ _ _ _ _ _ (ix3 _ _ ch)
  rw [Cert.GruSpec.G_ix3]
  exact outAt_apply m c t h3 r ch _ _ rfl rfl

/-- The output array after the run is the specification of the seven argument arrays. -/
theorem final8 (c : Dev nD) :
    (dats (F := Ideal) m 0 c).arrAt 8 cfg0.N
      = Cert.GruSpec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) :=
  (dats m 0 c).arrAt_eq_of_cover 8 _ (fun t hf => flushed8_eq m c t hf) cover8

end Cert.KernelIdeal.Hand

end
-- ==== Proof.RefValue.lean ====
/-
  The reference program computes the specification: read at graph b, node n, channel c, its result is one GRU step on
  the aggregated row of that node.  The flattened [8192, ·] arrays hold node n of graph b in row b·4096 + n; the
  three 32-wide slices of the 96-wide pre-activations at offsets 0, 32, 64 are the gates' columns c, 32 + c, 64 + c;
  and 1 / (1 + exp (−x)) with the float literal one is the logistic function.
-/
import proofs.«164906_g76081050681489_cont_9to1_m_207_10_alg».proof.Proof.Gen.ReferenceIdeal.Read
import proofs.«164906_g76081050681489_cont_9to1_m_207_10_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

/-- The float literal one denotes the real number one. -/
theorem ofBits_one : Ideal.ofBits .f32 0x3F800000#32 = 1 := by
  simp [Ideal.ofBits, Ideal.ieee, -EReal.coe_mul]; norm_num

/-- With the literal one, 1 / (1 + exp (−x)) is the logistic function. -/
theorem div_one_eq_logistic (x : EReal) :
    Ideal.div (Ideal.ofBits .f32 0x3F800000#32) (Ideal.ofBits .f32 0x3F800000#32 + Ideal.exp (-x)) = Ideal.logistic x := by
  rw [ofBits_one]; rfl

/-- The row of the flattened arrays that holds node n of graph b. -/
def row (b : Fin 2) (n : Fin 4096) : Fin 8192 := ⟨b.val * 4096 + n.val, by omega⟩

theorem row_val (b : Fin 2) (n : Fin 4096) : (row b n).val = b.val * 4096 + n.val := rfl

/-! ## The index maps of the layout operations, at indices given by coordinates -/

section Indices
/-- The result's element (b, n, c) is element (b·4096 + n, c) of the flattened result. -/
theorem idx41_ix (b : Fin 2) (n : Fin 4096) (c : Fin 32) : idx_main_v41 (ix3 b n c) = ix2 (row b n) c := by
  have hb := b.isLt; have hn := n.isLt; have hc := c.isLt
  funext a
  match a with
  | ⟨0, _⟩ => exact Fin.ext (by show ((b.val * 4096 + n.val) * 32 + c.val) / 32 = b.val * 4096 + n.val; omega)
  | ⟨1, _⟩ => exact Fin.ext (by show ((b.val * 4096 + n.val) * 32 + c.val) % 32 = c.val; omega)

/-- Element (b·4096 + n, k) of a flattened [2, 4096, 32] array is its element (b, n, k). -/
theorem idx3_ix (b : Fin 2) (n : Fin 4096) (k : Fin 32) : idx_main_v3 (ix2 (row b n) k) = ix3 b n k := by
  have hb := b.isLt; have hn := n.isLt; have hk := k.isLt
  funext a
  match a with
  | ⟨0, _⟩ => exact Fin.ext (by show ((b.val * 4096 + n.val) * 32 + k.val) / 131072 = b.val; omega)
  | ⟨1, _⟩ => exact Fin.ext (by show ((b.val * 4096 + n.val) * 32 + k.val) / 32 % 4096 = n.val; omega)
  | ⟨2, _⟩ => exact Fin.ext (by show ((b.val * 4096 + n.val) * 32 + k.val) % 32 = k.val; omega)

theorem idx4_ix (b : Fin 2) (n : Fin 4096) (k : Fin 32) : idx_main_v4 (ix2 (row b n) k) = ix3 b n k := idx3_ix b n k

theorem lidx0_ix (b : Fin 2) (n l : Fin 4096) (k : Fin 32) : lidx_main_v0 (ix3 b n k) l = ix3 b n l := by
  funext a; match a with | ⟨0, _⟩ => rfl | ⟨1, _⟩ => rfl | ⟨2, _⟩ => rfl
theorem ridx0_ix (b : Fin 2) (n l : Fin 4096) (k : Fin 32) : ridx_main_v0 (ix3 b n k) l = ix3 b l k := by
  funext a; match a with | ⟨0, _⟩ => rfl | ⟨1, _⟩ => rfl | ⟨2, _⟩ => rfl
theorem idx1_ix (b : Fin 2) (n : Fin 4096) (k : Fin 32) : idx_main_v1 (ix3 b n k) = ix3 (0 : Fin 1) (0 : Fin 1) k := by
  funext a; match a with | ⟨0, _⟩ => rfl | ⟨1, _⟩ => rfl | ⟨2, _⟩ => rfl

theorem lidx5_ix (r : Fin 8192) (j : Fin 96) (k : Fin 32) : lidx_main_v5 (ix2 r j) k = ix2 r k := by
  funext a; match a with | ⟨0, _⟩ => rfl | ⟨1, _⟩ => rfl
theorem ridx5_ix (r : Fin 8192) (j : Fin 96) (k : Fin 32) : ridx_main_v5 (ix2 r j) k = ix2 k j := by
  funext a; match a with | ⟨0, _⟩ => rfl | ⟨1, _⟩ => rfl
theorem lidx9_ix (r : Fin 8192) (j : Fin 96) (k : Fin 32) : lidx_main_v9 (ix2 r j) k = ix2 r k := by
  funext a; match a with | ⟨0, _⟩ => rfl | ⟨1, _⟩ => rfl
theorem ridx9_ix (r : Fin 8192) (j : Fin 96) (k : Fin 32) : ridx_main_v9 (ix2 r j) k = ix2 k j := by
  funext a; match a with | ⟨0, _⟩ => rfl | ⟨1, _⟩ => rfl
theorem idx67_ix (r : Fin 8192) (j : Fin 96) : idx_main_v6 (idx_main_v7 (ix2 r j)) = ix1 j := by
  funext a; match a with | ⟨0, _⟩ => rfl
theorem idx1011_ix (r : Fin 8192) (j : Fin 96) : idx_main_v10 (idx_main_v11 (ix2 r j)) = ix1 j := by
  funext a; match a with | ⟨0, _⟩ => rfl

theorem idx13_ix (r : Fin 8192) (c : Fin 32) : idx_main_v13 (ix2 r c) = ix2 r (⟨c.val, by omega⟩ : Fin 96) := by
  funext a; match a with | ⟨0, _⟩ => rfl | ⟨1, _⟩ => rfl
theorem idx14_ix (r : Fin 8192) (c : Fin 32) : idx_main_v14 (ix2 r c) = ix2 r (⟨32 + c.val, by omega⟩ : Fin 96) := by
  funext a; match a with | ⟨0, _⟩ => rfl | ⟨1, _⟩ => rfl
theorem idx15_ix (r : Fin 8192) (c : Fin 32) : idx_main_v15 (ix2 r c) = ix2 r (⟨64 + c.val, by omega⟩ : Fin 96) := by
  funext a; match a with | ⟨0, _⟩ => rfl | ⟨1, _⟩ => rfl
theorem idx16_ix (r : Fin 8192) (c : Fin 32) : idx_main_v16 (ix2 r c) = ix2 r (⟨c.val, by omega⟩ : Fin 96) := by
  funext a; match a with | ⟨0, _⟩ => rfl | ⟨1, _⟩ => rfl
theorem idx17_ix (r : Fin 8192) (c : Fin 32) : idx_main_v17 (ix2 r c) = ix2 r (⟨32 + c.val, by omega⟩ : Fin 96) := by
  funext a; match a with | ⟨0, _⟩ => rfl | ⟨1, _⟩ => rfl
theorem idx18_ix (r : Fin 8192) (c : Fin 32) : idx_main_v18 (ix2 r c) = ix2 r (⟨64 + c.val, by omega⟩ : Fin 96) := by
  funext a; match a with | ⟨0, _⟩ => rfl | ⟨1, _⟩ => rfl

end Indices

/-! ## The stages of the reference, read at indices given by coordinates -/

section Stages
variable (x0 : (⟨S2x4096x4096, .f32⟩ : BufTy).Contents (Elt Ideal)) (x1 : (⟨S2x4096x32, .f32⟩ : BufTy).Contents (Elt Ideal))
  (x2 : (⟨S1x1x32, .f32⟩ : BufTy).Contents (Elt Ideal)) (x3 x4 : (⟨S32x96, .f32⟩ : BufTy).Contents (Elt Ideal))
  (x5 x6 : (⟨S96, .f32⟩ : BufTy).Contents (Elt Ideal))

/-- The graph convolution plus its bias, at (b, n, k), is the aggregated input. -/
theorem v2_ix (b : Fin 2) (n : Fin 4096) (k : Fin 32) :
    val_main_v2 (F := Ideal) x0 x1 x2 (ix3 b n k) = Cert.GruSpec.agg x0 x1 x2 b n k := by
  rw [val_main_v2_apply, val_main_v0_apply, val_main_v1_apply, idx1_ix]
  simp only [lidx0_ix, ridx0_ix, Ideal.addf_def]
  rfl

/-- Row b·4096 + n of the flattened aggregated input. -/
theorem v3_ix (b : Fin 2) (n : Fin 4096) (k : Fin 32) :
    val_main_v3 (F := Ideal) x0 x1 x2 (ix2 (row b n) k) = Cert.GruSpec.agg x0 x1 x2 b n k := by
  rw [val_main_v3_apply, idx3_ix, v2_ix]

/-- Row b·4096 + n of the flattened hidden state. -/
theorem v4_ix (b : Fin 2) (n : Fin 4096) (k : Fin 32) :
    val_main_v4 (F := Ideal) x1 (ix2 (row b n) k) = x1 (ix3 b n k) := by
  rw [val_main_v4_apply, idx4_ix]

/-- The input pre-activations of row b·4096 + n. -/
theorem v8_ix (b : Fin 2) (n : Fin 4096) (j : Fin 96) :
    val_main_v8 (F := Ideal) x0 x1 x2 x3 x5 (ix2 (row b n) j)
      = Cert.GruSpec.pre (Cert.GruSpec.agg x0 x1 x2 b n) x3 (fun j => x5 (ix1 j)) j := by
  rw [val_main_v8_apply, val_main_v5_apply, val_main_v7_apply, val_main_v6_apply, idx67_ix]
  simp only [lidx5_ix, ridx5_ix, v3_ix, Ideal.addf_def]
  rfl

/-- The hidden pre-activations of row b·4096 + n. -/
theorem v12_ix (b : Fin 2) (n : Fin 4096) (j : Fin 96) :
    val_main_v12 (F := Ideal) x1 x4 x6 (ix2 (row b n) j)
      = Cert.GruSpec.pre (fun k => x1 (ix3 b n k)) x4 (fun j => x6 (ix1 j)) j := by
  rw [val_main_v12_apply, val_main_v9_apply, val_main_v11_apply, val_main_v10_apply, idx1011_ix]
  simp only [lidx9_ix, ridx9_ix, v4_ix, Ideal.addf_def]
  rfl

end Stages

section Gates
variable (x0 : (⟨S2x4096x4096, .f32⟩ : BufTy).Contents (Elt Ideal)) (x1 : (⟨S2x4096x32, .f32⟩ : BufTy).Contents (Elt Ideal))
  (x2 : (⟨S1x1x32, .f32⟩ : BufTy).Contents (Elt Ideal)) (x3 x4 : (⟨S32x96, .f32⟩ : BufTy).Contents (Elt Ideal))
  (x5 x6 : (⟨S96, .f32⟩ : BufTy).Contents (Elt Ideal))

/-- The update gate of row b·4096 + n at channel c. -/
theorem v25_ix (b : Fin 2) (n : Fin 4096) (c : Fin 32) :
    val_main_v25 (F := Ideal) x0 x1 x2 x3 x4 x5 x6 (ix2 (row b n) c)
      = Ideal.logistic (Cert.GruSpec.pre (Cert.GruSpec.agg x0 x1 x2 b n) x3 (fun j => x5 (ix1 j)) ⟨c.val, by omega⟩
          + Cert.GruSpec.pre (fun k => x1 (ix3 b n k)) x4 (fun j => x6 (ix1 j)) ⟨c.val, by omega⟩) := by
  rw [val_main_v25_apply, val_main_v24_apply, val_main_cst_0_apply, val_main_v23_apply, val_main_v22_apply,
    val_main_cst_apply, val_main_v21_apply, val_main_v20_apply, val_main_v19_apply, val_main_v13_apply,
    val_main_v16_apply, idx13_ix, idx16_ix, v8_ix, v12_ix]
  simp only [Ideal.hostDivf_def, Ideal.addf_def, Ideal.hostUnary_exp_def, Ideal.hostNegf_def, Ideal.negf_def, Ideal.ofBits_def]
  exact div_one_eq_logistic _

/-- The reset gate of row b·4096 + n at channel c. -/
theorem v32_ix (b : Fin 2) (n : Fin 4096) (c : Fin 32) :
    val_main_v32 (F := Ideal) x0 x1 x2 x3 x4 x5 x6 (ix2 (row b n) c)
      = Ideal.logistic (Cert.GruSpec.pre (Cert.GruSpec.agg x0 x1 x2 b n) x3 (fun j => x5 (ix1 j)) ⟨32 + c.val, by omega⟩
          + Cert.GruSpec.pre (fun k => x1 (ix3 b n k)) x4 (fun j => x6 (ix1 j)) ⟨32 + c.val, by omega⟩) := by
  rw [val_main_v32_apply, val_main_v31_apply, val_main_cst_2_apply, val_main_v30_apply, val_main_v29_apply,
    val_main_cst_1_apply, val_main_v28_apply, val_main_v27_apply, val_main_v26_apply, val_main_v14_apply,
    val_main_v17_apply, idx14_ix, idx17_ix, v8_ix, v12_ix]
  simp only [Ideal.hostDivf_def, Ideal.addf_def, Ideal.hostUnary_exp_def, Ideal.hostNegf_def, Ideal.negf_def, Ideal.ofBits_def]
  exact div_one_eq_logistic _

/-- The candidate state of row b·4096 + n at channel c. -/
theorem v35_ix (b : Fin 2) (n : Fin 4096) (c : Fin 32) :
    val_main_v35 (F := Ideal) x0 x1 x2 x3 x4 x5 x6 (ix2 (row b n) c)
      = Ideal.tanh (Cert.GruSpec.pre (Cert.GruSpec.agg x0 x1 x2 b n) x3 (fun j => x5 (ix1 j)) ⟨64 + c.val, by omega⟩
          + Ideal.logistic (Cert.GruSpec.pre (Cert.GruSpec.agg x0 x1 x2 b n) x3 (fun j => x5 (ix1 j)) ⟨32 + c.val, by omega⟩
              + Cert.GruSpec.pre (fun k => x1 (ix3 b n k)) x4 (fun j => x6 (ix1 j)) ⟨32 + c.val, by omega⟩)
            * Cert.GruSpec.pre (fun k => x1 (ix3 b n k)) x4 (fun j => x6 (ix1 j)) ⟨64 + c.val, by omega⟩) := by
  rw [val_main_v35_apply, val_main_v34_apply, val_main_v15_apply, val_main_v33_apply, val_main_v18_apply,
    idx15_ix, idx18_ix, v8_ix, v12_ix, v32_ix]
  simp only [Ideal.addf_def, Ideal.mulf_def, Ideal.hostUnary_tanh_def]

/-- The flattened result at row b·4096 + n, channel c, is one GRU step. -/
theorem v40_ix (b : Fin 2) (n : Fin 4096) (c : Fin 32) :
    val_main_v40 (F := Ideal) x0 x1 x2 x3 x4 x5 x6 (ix2 (row b n) c)
      = Cert.GruSpec.G' x0 x1 x2 x3 x4 x5 x6 b n c := by
  rw [val_main_v40_apply, val_main_v36_apply, val_main_v39_apply, val_main_v38_apply, val_main_v37_apply,
    val_main_cst_3_apply, v25_ix, v35_ix, v4_ix]
  simp only [Ideal.addf_def, Ideal.mulf_def, Ideal.subf_def, Ideal.ofBits_def]
  rfl

/-- The reference's result array is the specification. -/
theorem v41_eq_G : val_main_v41 (F := Ideal) x0 x1 x2 x3 x4 x5 x6 = Cert.GruSpec.G x0 x1 x2 x3 x4 x5 x6 := by
  funext i
  obtain ⟨b, n, c, rfl⟩ : ∃ (b : Fin 2) (n : Fin 4096) (c : Fin 32), i = ix3 b n c := ⟨i 0, i 1, i 2, eq_ix3 i⟩
  rw [val_main_v41_apply, idx41_ix, v40_ix, Cert.GruSpec.G_ix3]

end Gates

/-- The reference's run computes the specification of its seven argument arrays. -/
theorem res_eq_G (m : (ℓ : Loc nD τ sig) → Buf (Elt Ideal) ℓ) (c : Dev nD) :
    Cert.ReferenceIdeal.Value.res_main_v41 (F := Ideal) m c
      = Cert.GruSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [val_main_v41_eq]
  exact v41_eq_G _ _ _ _ _ _ _

end Cert.ReferenceIdeal.RefValue

end
-- ==== Proof.lean ====
/-
  The gated graph convolution kernel against its jnp reference.

  The kernel tiles the [2, 4096, 4096] adjacency over a grid of (batch, block of 512 rows, block of 1024
  columns), accumulates the product of each tile with the matching chunk of the [2, 4096, 32] annotations in a
  scratch buffer over the four column blocks, and at the last column block adds the convolution bias and applies
  one GRU step against the hidden state (the same annotations) before writing the 512 finished rows back.  The
  reference contracts over all 4096 columns at once and applies the same GRU step to all 8192 rows.  Over the
  extended reals the two are one function of the arguments (Proof/Spec.lean): the four partial sums of a row add
  up to the whole contraction because addition is associative and commutative, and everything after the
  contraction is the same expression on both sides.

  The three frames: the kernel's two programs run through the pipelined launch whose windows share the annotation
  array (Proof/KB, Proof/KI); the reference is a straight line of host operations.  The idealization rewrote
  nothing, so there is nothing to preserve.
-/
import proofs.«164906_g76081050681489_cont_9to1_m_207_10_alg».proof.Defs
import proofs.«164906_g76081050681489_cont_9to1_m_207_10_alg».proof.Proof.Gen.Kernel
import proofs.«164906_g76081050681489_cont_9to1_m_207_10_alg».proof.Proof.Gen.KernelIdeal
import proofs.«164906_g76081050681489_cont_9to1_m_207_10_alg».proof.Proof.Gen.ReferenceIdeal
import proofs.«164906_g76081050681489_cont_9to1_m_207_10_alg».proof.Proof.Gen.ReferenceIdeal.Run
import proofs.«164906_g76081050681489_cont_9to1_m_207_10_alg».proof.Proof.Gen.ReferenceIdeal.Read
import proofs.«164906_g76081050681489_cont_9to1_m_207_10_alg».proof.Proof.Gen.Pre_finite_inputs
import proofs.«164906_g76081050681489_cont_9to1_m_207_10_alg».proof.Proof.KB.Frame
import proofs.«164906_g76081050681489_cont_9to1_m_207_10_alg».proof.Proof.KI.Frame
import proofs.«164906_g76081050681489_cont_9to1_m_207_10_alg».proof.Proof.KI.ArgsKept
import proofs.«164906_g76081050681489_cont_9to1_m_207_10_alg».proof.Proof.KI.Value
import proofs.«164906_g76081050681489_cont_9to1_m_207_10_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the specification's function of the arguments. -/
theorem algebraic : Cert.algebraic_KernelIdeal_ReferenceIdeal := by
  intro m ρ m' ρ' _ hagree
  refine ⟨fun c => Cert.GruSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨((h c).1 8).trans (Cert.KernelIdeal.Hand.final8 m c), Cert.KernelIdeal.Hand.args_kept m (Cert.KernelIdeal.Hand.dats m) (Cert.KernelIdeal.Hand.A_eq m) r h c⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq_G, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
